-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x64 .f32) (main_arg1 : FVec F S4096x4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x64 : Shape := ⟨2, ![4096, 64]⟩
abbrev S4096x4096 : Shape := ⟨2, ![4096, 4096]⟩
abbrev S512x4096 : Shape := ⟨2, ![512, 4096]⟩
abbrev S4096x128 : Shape := ⟨2, ![4096, 128]⟩
abbrev S512x64 : Shape := ⟨2, ![512, 64]⟩
abbrev S4096x512 : Shape := ⟨2, ![4096, 512]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .bf16⟩
  | .hbm, ⟨3, _⟩ => ⟨S4096x64, .f32⟩
  | .local _ .vmem, ⟨0, _⟩ => ⟨S4096x64, .bf16⟩
  | .local _ .vmem, ⟨1, _⟩ => ⟨S512x4096, .f32⟩
  | .local _ .vmem, ⟨2, _⟩ => ⟨S512x4096, .f32⟩
  | .local _ .vmem, ⟨3, _⟩ => ⟨S4096x64, .f32⟩
  | .local _ .vmem, ⟨4, _⟩ => ⟨S4096x4096, .bf16⟩
  | .local _ .vmem, ⟨5, _⟩ => ⟨S4096x128, .bf16⟩
  | .local _ .vmem, ⟨6, _⟩ => ⟨S512x64, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let c0_15 : Index := 0#32
  let arg0 : BitVec 32 := BitVec.ofNat 32 (i 0).val
  let c1_i32 : BitVec 32 := 1#32
  let v29 : BitVec 32 := Scalar.subi arg0 c1_i32
  let c512_i32_14 : BitVec 32 := 512#32
  let v30 : BitVec 32 := Scalar.muli v29 c512_i32_14
  let v31 : Index := Scalar.indexCast v30
  ![0, v31.toNat]
def k0_off2 (i : grid0.Coords) : Fin 2 → Nat :=
  let arg0 : BitVec 32 := BitVec.ofNat 32 (i 0).val
  let c1_i32_23 : BitVec 32 := 1#32
  let v38 : BitVec 32 := Scalar.subi arg0 c1_i32_23
  let c512_i32_24 : BitVec 32 := 512#32
  let v39 : BitVec 32 := Scalar.muli v38 c512_i32_24
  let v40 : Index := Scalar.indexCast v39
  let c0_25 : Index := 0#32
  ![v40.toNat, 0]
def k0_off3 (i : grid0.Coords) : Fin 2 → Nat :=
  let arg0 : BitVec 32 := BitVec.ofNat 32 (i 0).val
  let c512_i32 : BitVec 32 := 512#32
  let v8 : BitVec 32 := Scalar.muli arg0 c512_i32
  let v9 : Index := Scalar.indexCast v8
  let c0_4 : Index := 0#32
  ![v9.toNat, 0]
def k0_off4 (i : grid0.Coords) : Fin 2 → Nat :=
  let arg0 : BitVec 32 := BitVec.ofNat 32 (i 0).val
  let c512_i32_7 : BitVec 32 := 512#32
  let v16 : BitVec 32 := Scalar.muli arg0 c512_i32_7
  let v17 : Index := Scalar.indexCast v16
  let c0_8 : Index := 0#32
  ![v17.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bitsLt_bf16_f32 : FTy.bits .bf16 < FTy.bits .f32
  inb_S4096x128_S4096x64_0_0 : ∀ a, (![0, 0] : Fin 2 → Nat) a + S4096x64.size a ≤ S4096x128.size a
  h_S4096x64 : 0 < S4096x64.numel
  shapeCasts_S4096x64_S4096x64 : S4096x64.ShapeCasts S4096x64
  packedbf16_S4096x128_S4096x64_0_0 : (Rect.unit (s := S4096x128) ![0, 0] S4096x64.size inb_S4096x128_S4096x64_0_0).PackedRows (EltTy.packing .bf16)
  inb_S4096x64_S4096x64_0_0 : ∀ a, (![0, 0] : Fin 2 → Nat) a + S4096x64.size a ≤ S4096x64.size a
  inb_S4096x128_S4096x64_0_64 : ∀ a, (![0, 64] : Fin 2 → Nat) a + S4096x64.size a ≤ S4096x128.size a
  packedbf16_S4096x128_S4096x64_0_64 : (Rect.unit (s := S4096x128) ![0, 64] S4096x64.size inb_S4096x128_S4096x64_0_64).PackedRows (EltTy.packing .bf16)
  h_S4096x512 : 0 < S4096x512.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x128_S4096x128_0_0 : ∀ a, (![0, 0] : Fin 2 → Nat) a + S4096x128.size a ≤ S4096x128.size a
  h_S4096x128 : 0 < S4096x128.numel
  slices_S512x128_o0_0_S512x64 : S512x128.Slices ![0, 0] S512x64
  slices_S512x128_o0_64_S512x64 : S512x128.Slices ![0, 64] S512x64
  packedbf16_S512x64_S512x64_0_0 : (Rect.unit (s := S512x64) ![0, 0] S512x64.size inb_S512x64_S512x64_0_0).PackedRows (EltTy.packing .bf16)
  inb_S4096x4096_S4096x512_0_3584 : ∀ a, (![0, 3584] : Fin 2 → Nat) a + S4096x512.size a ≤ S4096x4096.size a
  dot_S4096x512_S512x64_S4096x64_1_0_0_1_n_n_wf : DotDims.WF S4096x512 S512x64 S4096x64 [1] [0] [0] [1] [] []
  dot_S512x4096_S4096x128_S512x128_1_0_0_1_n_n_wf : DotDims.WF S512x4096 S4096x128 S512x128 [1] [0] [0] [1] [] []
  hrank0 : 0 < grid0.rank
  k0_off1_inb : ∀ i : grid0.Coords, ∀ (k0_h2 : k0_cond2 i = 1#1), ∀ a, (k0_off1 i) a + S4096x512.size a ≤ S4096x4096.size a
  k0_off2_inb : ∀ i : grid0.Coords, ∀ (k0_h2 : k0_cond2 i = 1#1), ∀ a, (k0_off2 i) a + S512x64.size a ≤ S4096x128.size a
  k0_off2_packedbf16 : ∀ i : grid0.Coords, ∀ (k0_h2 : k0_cond2 i = 1#1), (Rect.unit (s := S4096x128) (k0_off2 i) S512x64.size (k0_off2_inb i k0_h2)).PackedRows (EltTy.packing .bf16)
  k0_off3_inb : ∀ i : grid0.Coords, ∀ a, (k0_off3 i) a + S512x4096.size a ≤ S4096x4096.size a
  k0_off3_packedbf16 : ∀ i : grid0.Coords, (Rect.unit (s := S4096x4096) (k0_off3 i) S512x4096.size (k0_off3_inb i)).PackedRows (EltTy.packing .bf16)
  k0_off4_inb : ∀ i : grid0.Coords, ∀ a, (k0_off4 i) a + S512x64.size a ≤ S4096x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .bf16 = 32 ∨ (Rect.block (s := S4096x64) S4096x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_call0_v0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x64 : Shape := ⟨2, ![4096, 64]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | .hbm, ⟨3, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.KBody.lean ====
import proofs.«107282_g65807488909795_cont_9to1_m_465_25_alg».proof.Proof.Gen.Kernel.Frame
import proofs.«107282_g65807488909795_cont_9to1_m_465_25_alg».proof.Proof.Gen.Kernel.Skeleton
import Idealize.ShloMosaic.Lib.WritesUnit
import Idealize.ShloMosaic.Lib.WholeRead

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The three conditions of the body, and the offsets it computes, in closed form

The grid has one axis of eight points; write `n` for the coordinate. The body initialises at `n = 0`, adds the
previous block's column term at `n ≥ 1`, and adds the last column term at `n = 7`. -/

abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1
abbrev cond2 (i : grid0.Coords) : Prop := (Scalar.cmpi .ne (Scalar.extui (Scalar.cmpi .eq (BitVec.ofNat 32 (i 0).val) 7#32)) 0#32) = 1#1

theorem hcond0 : ∀ i : grid0.Coords, cond0 i ↔ (i 0).val = 0 := by decide +kernel
theorem hcond1 : ∀ i : grid0.Coords, cond1 i ↔ 1 ≤ (i 0).val := by decide +kernel
theorem hcond2 : ∀ i : grid0.Coords, cond2 i ↔ (i 0).val = 7 := by decide +kernel
theorem coord_lt : ∀ i : grid0.Coords, (i 0).val < 8 := by decide +kernel

/-- The column offset of the previous block, `512 (n - 1)`, is computed in 32-bit words: stated for every `n` it is a
    residue, which is `512 (n - 1)` from `n = 1` on. -/
theorem k0_off1_eq : ∀ i : grid0.Coords, k0_off1 i = ![0, (512 * (i 0).val + 4294966784) % 4294967296] := by decide +kernel
instance closedOff_k0_off1 (i : grid0.Coords) : ClosedOff (k0_off1 i) := ⟨![0, (512 * (i 0).val + 4294966784) % 4294967296], k0_off1_eq i⟩
theorem k0_off2_eq : ∀ i : grid0.Coords, k0_off2 i = ![(512 * (i 0).val + 4294966784) % 4294967296, 0] := by decide +kernel
instance closedOff_k0_off2 (i : grid0.Coords) : ClosedOff (k0_off2 i) := ⟨![(512 * (i 0).val + 4294966784) % 4294967296, 0], k0_off2_eq i⟩

theorem k0_off1_pos (i : grid0.Coords) (h : 1 ≤ (i 0).val) : k0_off1 i = ![0, 512 * ((i 0).val - 1)] := by
  have h8 := coord_lt i
  rw [k0_off1_eq]
  have : (512 * (i 0).val + 4294966784) % 4294967296 = 512 * ((i 0).val - 1) := by omega
  rw [this]
theorem k0_off2_pos (i : grid0.Coords) (h : 1 ≤ (i 0).val) : k0_off2 i = ![512 * ((i 0).val - 1), 0] := by
  have h8 := coord_lt i
  rw [k0_off2_eq]
  have : (512 * (i 0).val + 4294966784) % 4294967296 = 512 * ((i 0).val - 1) := by omega
  rw [this]

/-! ## A box written over an array, and a box read out of one -/

/-- The array `base` overwritten, on the box of sizes `size` at offsets `off`, by `w` (read at the index minus the
    offsets). -/
def put {s : Shape} {e : EltTy} (off size : Fin s.rank → ℕ) (base : Vec F s e)
    (w : ((a : Fin s.rank) → Fin (size a)) → Elt F e) : Vec F s e :=
  fun y => if h : ∀ a, off a ≤ (y a).val ∧ (y a).val < off a + size a then w (Rect.unitLocal (s := s) (off := off) (size := size) y h) else base y

/-- The box of sizes `size` at offsets `off` of the array `x`. -/
def box {s : Shape} {e : EltTy} (off size : Fin s.rank → ℕ) (inb : ∀ a, off a + size a ≤ s.size a) (x : Vec F s e) :
    (Rect.unit (s := s) off size inb).toLoadRect.shape.Idx → Elt F e :=
  fun z => x ((Rect.unit (s := s) off size inb).toLoadRect.idx z)

section Whole
variable {sp : Space} {s : Shape} {e : EltTy} {m : Memref sig .tc sp s e}

/-- A load of a box of a whole buffer held at `x` reads that box of `x`. -/
theorem readAt_box (hm : m.IsWhole) (x : Vec F s e) (off size : Fin s.rank → ℕ) (inb : ∀ a, off a + size a ≤ s.size a) :
    View.readAt (Elt F) m.view (Rect.unit (s := s) off size inb).toLoadRect (hm.unread x) = box off size inb x :=
  funext fun z => hm.readAt_unread x _ z

/-- The newest store read back: the stored box over what the earlier stores left. -/
theorem read_put (f : m.view.ty.Contents (Elt F)) {off off' size : Fin s.rank → ℕ} (inb : ∀ a, off a + size a ≤ s.size a)
    (w : (Rect.unit (s := s) off size inb).shape.Idx → Elt F e) (L : List (View.Piece (Elt F) s e)) (heq : off = off') :
    m.view.read (Elt F) (m.view.writes (Elt F) f ((⟨Rect.unit off size inb, w⟩ : View.Piece (Elt F) s e) :: L))
      = put off' size (m.view.read (Elt F) (m.view.writes (Elt F) f L)) w :=
  funext fun y => View.read_writes_cons_unit m.view f inb w L y heq

theorem read_nil (hm : m.IsWhole) (x : Vec F s e) : m.view.read (Elt F) (m.view.writes (Elt F) (hm.unread x) []) = x := by
  rw [View.writes_nil]; exact hm.read_unread x
end Whole

/-- The whole box of an array is the array. -/
theorem box_whole {s : Shape} {e : EltTy} (inb : ∀ a, (fun _ => 0 : Fin s.rank → ℕ) a + s.size a ≤ s.size a) (x : Vec F s e) :
    box (fun _ => 0) s.size inb x = x := by
  funext z; unfold box; congr 1; funext a; apply Fin.ext
  show 0 + 1 * (z a).val = (z a).val
  omega

/-- Writing the whole box leaves only what was written. -/
theorem put_whole {s : Shape} {e : EltTy} (base : Vec F s e) (w : ((a : Fin s.rank) → Fin (s.size a)) → Elt F e) :
    put (fun _ => 0) s.size base w = w := by
  funext y; unfold put
  rw [dif_pos (fun a => ⟨Nat.zero_le _, by rw [Nat.zero_add]; exact (y a).isLt⟩)]
  congr 1

/-- The box at offsets zero of every size of a rank-2 array is the array; writing it leaves only what was written. -/
theorem box_zero2 {d : Fin 2 → ℕ} {e : EltTy} (inb : ∀ a, (![0, 0] : Fin 2 → ℕ) a + (⟨2, d⟩ : Shape).size a ≤ (⟨2, d⟩ : Shape).size a)
    (x : Vec F (⟨2, d⟩ : Shape) e) : box (s := (⟨2, d⟩ : Shape)) ![0, 0] (⟨2, d⟩ : Shape).size inb x = x := by
  funext z; unfold box; congr 1; funext a; apply Fin.ext
  show (![0, 0] : Fin 2 → ℕ) a + 1 * (z a).val = (z a).val
  match a with
  | ⟨0, _⟩ => show 0 + 1 * _ = _; omega
  | ⟨1, _⟩ => show 0 + 1 * _ = _; omega

theorem put_zero2 {d : Fin 2 → ℕ} {e : EltTy} (base : Vec F (⟨2, d⟩ : Shape) e) (w : ((a : Fin 2) → Fin (d a)) → Elt F e) :
    put (s := (⟨2, d⟩ : Shape)) ![0, 0] d base w = w := by
  funext y; unfold put
  have h : ∀ a : Fin 2, (![0, 0] : Fin 2 → ℕ) a ≤ (y a).val ∧ (y a).val < (![0, 0] : Fin 2 → ℕ) a + d a := fun a => by
    match a with
    | ⟨0, _⟩ => exact ⟨Nat.zero_le _, by show _ < 0 + _; rw [Nat.zero_add]; exact (y _).isLt⟩
    | ⟨1, _⟩ => exact ⟨Nat.zero_le _, by show _ < 0 + _; rw [Nat.zero_add]; exact (y _).isLt⟩
  rw [dif_pos h]
  congr 1; funext a; apply Fin.ext
  match a with
  | ⟨0, _⟩ => rfl
  | ⟨1, _⟩ => rfl

/-- A load of the whole of a rank-2 buffer reads its contents as they stand. -/
theorem readAt_zero2 {sp : Space} {d : Fin 2 → ℕ} {e : EltTy} (m : Memref sig .tc sp (⟨2, d⟩ : Shape) e)
    (inb : ∀ a, (![0, 0] : Fin 2 → ℕ) a + (⟨2, d⟩ : Shape).size a ≤ (⟨2, d⟩ : Shape).size a) (f : m.view.ty.Contents (Elt F)) :
    View.readAt (Elt F) m.view (Rect.unit (s := (⟨2, d⟩ : Shape)) ![0, 0] (⟨2, d⟩ : Shape).size inb).toLoadRect f = m.view.read (Elt F) f := by
  funext z; rw [View.readAt_apply]; congr 1; funext a; apply Fin.ext
  show (![0, 0] : Fin 2 → ℕ) a + 1 * (z a).val = (z a).val
  match a with
  | ⟨0, _⟩ => show 0 + 1 * _ = _; omega
  | ⟨1, _⟩ => show 0 + 1 * _ = _; omega

/-! ## What a middle point leaves (`1 ≤ n`, `n ≠ 7`)

The running output gets the column term of block `n - 1` (the cached columns `512 (n - 1) …` of every row times the
staged rows), those staged rows go into the left half of the wide operand, block `n` of the matrix is cached, the
product of block `n` with the wide operand is formed, its left half replaces rows `512 n …` of the output and its right
half is staged. -/

section Middle
variable (i : grid0.Coords) (hc1 : cond1 i)

/-- Columns `512 (n - 1) …` of the cached matrix. -/
def colsPrev (xa : Vec F S4096x4096 .bf16) : Vec F S4096x512 .bf16 :=
  box (s := S4096x4096) (k0_off1 i) S4096x512.size (k0_off1_inb i hc1) xa
/-- The output after the column term of block `n - 1`. -/
def outAcc (x3 : Vec F S4096x64 .f32) (xa : Vec F S4096x4096 .bf16) (xs : Vec F S512x64 .bf16) : FVec F S4096x64 .f32 :=
  k0_pay3 x3 (colsPrev i hc1 xa) xs
/-- The wide operand with the staged rows published. -/
def hxB (xh : Vec F S4096x128 .bf16) (xs : Vec F S512x64 .bf16) : Vec F S4096x128 .bf16 :=
  put ![512 * ((i 0).val - 1), 0] S512x64.size xh (k0_pay4 xs)
/-- The cache with block `n` of the matrix. -/
def adjB (x2 : Vec F S512x4096 .f32) (xa : Vec F S4096x4096 .bf16) : Vec F S4096x4096 .bf16 :=
  put ![512 * (i 0).val, 0] S512x4096.size xa (k0_pay6 x2)
/-- The output after rows `512 n …` are replaced. -/
def outB (x2 : Vec F S512x4096 .f32) (x3 : Vec F S4096x64 .f32) (xa : Vec F S4096x4096 .bf16) (xh : Vec F S4096x128 .bf16) (xs : Vec F S512x64 .bf16) :
    Vec F S4096x64 .f32 :=
  put ![512 * (i 0).val, 0] S512x64.size (outAcc i hc1 x3 xa xs) (k0_pay8 x2 (hxB i xh xs))
/-- The rows staged for the next point. -/
def h1sB (x2 : Vec F S512x4096 .f32) (xh : Vec F S4096x128 .bf16) (xs : Vec F S512x64 .bf16) : FVec F S512x64 .bf16 :=
  k0_pay9 x2 (hxB i xh xs)

end Middle

set_option maxHeartbeats 1000000 in
theorem sound_B (c : Dev nD) (i : grid0.Coords) (arg1 : Memref sig .tc .vmem S4096x64 .bf16) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x128 .bf16) (harg5 : arg5.IsWhole) (arg6 : Memref sig .tc .vmem S512x64 .bf16) (harg6 : arg6.IsWhole) (hc0 : ¬cond0 i) (hc1 : cond1 i) (hc2 : ¬cond2 i)
    (x1 : Vec F S4096x64 .bf16) (x2 : Vec F S512x4096 .f32) (x3 : Vec F S4096x64 .f32) (xa : Vec F S4096x4096 .bf16) (xh : Vec F S4096x128 .bf16) (xs : Vec F S512x64 .bf16) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare xa ∗ owns (c : Thread nD τ) arg5 fullShare xh ∗ owns (c : Thread nD τ) arg6 fullShare xs
        ∗ (iprop(owns (c : Thread nD τ) arg1 fullShare x1 ∗ owns (c : Thread nD τ) arg2 fullShare x2
            ∗ owns (c : Thread nD τ) arg3 fullShare (outB i hc1 x2 x3 xa xh xs) ∗ owns (c : Thread nD τ) arg4 fullShare (adjB i x2 xa)
            ∗ owns (c : Thread nD τ) arg5 fullShare (hxB i xh xs) ∗ owns (c : Thread nD τ) arg6 fullShare (h1sB i x2 xh xs)) -∗ K ⟨⟩))
      ⊢ wp frame (wpE (defs₀ (F := F)) Variants.none c none) E (cc0__sgconv_kernel i arg1 harg1 arg2 harg2 arg3 harg3 arg4 harg4 arg5 harg5 arg6 harg6) K := by
  have hn1 : 1 ≤ (i 0).val := (hcond1 i).mp hc1
  have hn8 : (i 0).val < 8 := coord_lt i
  simp only [cc0__sgconv_kernel_eq_skeleton]; unfold cc0__sgconv_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc0 | exact hc1 | exact hc2)
  sl_step
  sl_unfold_run_names
  have e2 := (readAt_box harg2 x2 _ _ inb_S512x4096_S512x4096_0_0).trans (box_zero2 _ x2)
  have e3 := (readAt_box harg3 x3 _ _ inb_S4096x64_S4096x64_0_0).trans (box_zero2 _ x3)
  have e6 := (readAt_box harg6 xs _ _ inb_S512x64_S512x64_0_0).trans (box_zero2 _ xs)
  have h5 : arg5.view.read (Elt F) (arg5.view.writes (Elt F) (harg5.unread xh)
      [⟨Rect.unit (s := S4096x128) (k0_off2 i) S512x64.size (k0_off2_inb i hc1), k0_pay4 xs⟩]) = hxB i xh xs := by
    rw [read_put (m := arg5) _ _ _ _ (k0_off2_pos i hn1), read_nil]; rfl
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; rotate_left
    · iexact H3
    · ipureintro
      rw [e2, e3, e6, readAt_box harg4 xa, readAt_zero2 arg5, h5, read_put (m := arg3) _ _ _ _ (k0_off4_eq i),
        read_put (m := arg3) _ _ _ _ rfl, put_zero2]
      rfl
  isplitl [H4]
  · iexists _; isplitr; rotate_left
    · iexact H4
    · ipureintro
      rw [e2, read_put (m := arg4) _ _ _ _ (k0_off3_eq i), read_nil]
      rfl
  isplitl [H5]
  · iexists _; isplitr; rotate_left
    · iexact H5
    · ipureintro
      rw [e6]; exact h5
  · iexists _; isplitr; rotate_left
    · iexact H6
    · ipureintro
      rw [e2, e6, readAt_zero2 arg5, h5, read_put (m := arg6) _ _ _ _ rfl, put_zero2]
      rfl

/-! ## What the first point leaves (`n = 0`)

The wide operand is set whole — zeros on its left half, the features on its right half — then the point goes on as
every other does: block `n` cached, the product formed, its left half into rows `512 n …` of the output, its right
half staged. Nothing is added to the output here. -/

section First

/-- The wide operand as the first point sets it, over whatever it held: nothing of `b` is left. -/
def hxInit (b : Vec F S4096x128 .bf16) (x1 : Vec F S4096x64 .bf16) : Vec F S4096x128 .bf16 :=
  put ![0, 64] S4096x64.size (put ![0, 0] S4096x64.size b (k0_pay1 (F := F))) (k0_pay2 x1)

theorem hxInit_congr (b b' : Vec F S4096x128 .bf16) (x1 : Vec F S4096x64 .bf16) : hxInit b x1 = hxInit b' x1 := by
  funext y; unfold hxInit put
  have y0 : (y 0).val < 4096 := (y 0).isLt
  have y1 : (y 1).val < 128 := (y 1).isLt
  by_cases h : ∀ a, (![0, 64] : Fin 2 → ℕ) a ≤ (y a).val ∧ (y a).val < (![0, 64] : Fin 2 → ℕ) a + S4096x64.size a
  · rw [dif_pos h, dif_pos h]
  · rw [dif_neg h, dif_neg h]
    have h' : ∀ a, (![0, 0] : Fin 2 → ℕ) a ≤ (y a).val ∧ (y a).val < (![0, 0] : Fin 2 → ℕ) a + S4096x64.size a := by
      intro a
      match a with
      | ⟨0, _⟩ => exact ⟨Nat.zero_le _, by show (y 0).val < 0 + 4096; omega⟩
      | ⟨1, _⟩ =>
        refine ⟨Nat.zero_le _, ?_⟩
        show (y 1).val < 0 + 64
        by_contra hlt
        apply h
        intro a
        match a with
        | ⟨0, _⟩ => exact ⟨Nat.zero_le _, by show (y 0).val < 0 + 4096; omega⟩
        | ⟨1, _⟩ => exact ⟨by show 64 ≤ (y 1).val; omega, by show (y 1).val < 64 + 64; omega⟩
    rw [dif_pos h', dif_pos h']

variable (i : grid0.Coords)

def outA (x1 : Vec F S4096x64 .bf16) (x2 : Vec F S512x4096 .f32) (x3 : Vec F S4096x64 .f32) (xh : Vec F S4096x128 .bf16) : Vec F S4096x64 .f32 :=
  put ![512 * (i 0).val, 0] S512x64.size x3 (k0_pay8 x2 (hxInit xh x1))
def h1sA (x1 : Vec F S4096x64 .bf16) (x2 : Vec F S512x4096 .f32) (xh : Vec F S4096x128 .bf16) : FVec F S512x64 .bf16 :=
  k0_pay9 x2 (hxInit xh x1)

end First

set_option maxHeartbeats 1000000 in
theorem sound_A (c : Dev nD) (i : grid0.Coords) (arg1 : Memref sig .tc .vmem S4096x64 .bf16) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x128 .bf16) (harg5 : arg5.IsWhole) (arg6 : Memref sig .tc .vmem S512x64 .bf16) (harg6 : arg6.IsWhole) (hc0 : cond0 i) (hc1 : ¬cond1 i) (hc2 : ¬cond2 i)
    (x1 : Vec F S4096x64 .bf16) (x2 : Vec F S512x4096 .f32) (x3 : Vec F S4096x64 .f32) (xa : Vec F S4096x4096 .bf16) (xh : Vec F S4096x128 .bf16) (xs : Vec F S512x64 .bf16) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare xa ∗ owns (c : Thread nD τ) arg5 fullShare xh ∗ owns (c : Thread nD τ) arg6 fullShare xs
        ∗ (iprop(owns (c : Thread nD τ) arg1 fullShare x1 ∗ owns (c : Thread nD τ) arg2 fullShare x2
            ∗ owns (c : Thread nD τ) arg3 fullShare (outA i x1 x2 x3 xh) ∗ owns (c : Thread nD τ) arg4 fullShare (adjB i x2 xa)
            ∗ owns (c : Thread nD τ) arg5 fullShare (hxInit xh x1) ∗ owns (c : Thread nD τ) arg6 fullShare (h1sA x1 x2 xh)) -∗ K ⟨⟩))
      ⊢ wp frame (wpE (defs₀ (F := F)) Variants.none c none) E (cc0__sgconv_kernel i arg1 harg1 arg2 harg2 arg3 harg3 arg4 harg4 arg5 harg5 arg6 harg6) K := by
  simp only [cc0__sgconv_kernel_eq_skeleton]; unfold cc0__sgconv_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc0 | exact hc1 | exact hc2)
  sl_step
  sl_unfold_run_names
  have e1 := (readAt_box harg1 x1 _ _ inb_S4096x64_S4096x64_0_0).trans (box_zero2 _ x1)
  have e2 := (readAt_box harg2 x2 _ _ inb_S512x4096_S512x4096_0_0).trans (box_zero2 _ x2)
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; rotate_left
    · iexact H3
    · ipureintro
      unfold View.readCov
      rw [e1, e2, readAt_zero2 arg5, read_put (m := arg5) _ _ _ _ (rfl : (![0, 64] : Fin 2 → ℕ) = _),
        read_put (m := arg5) _ _ _ _ (rfl : (![0, 0] : Fin 2 → ℕ) = _), read_put (m := arg3) _ _ _ _ (k0_off4_eq i), read_nil]
      exact congrArg (fun h => (put (s := S4096x64) (e := .f32) ![512 * (i 0).val, 0] S512x64.size x3 (k0_pay8 x2 h) : Vec F S4096x64 .f32)) (hxInit_congr _ xh x1)
  isplitl [H4]
  · iexists _; isplitr; rotate_left
    · iexact H4
    · ipureintro
      rw [e2, read_put (m := arg4) _ _ _ _ (k0_off3_eq i), read_nil]
      rfl
  isplitl [H5]
  · iexists _; isplitr; rotate_left
    · iexact H5
    · ipureintro
      rw [e1, read_put (m := arg5) _ _ _ _ (rfl : (![0, 64] : Fin 2 → ℕ) = _),
        read_put (m := arg5) _ _ _ _ (rfl : (![0, 0] : Fin 2 → ℕ) = _), read_nil]
      rfl
  · iexists _; isplitr; rotate_left
    · iexact H6
    · ipureintro
      unfold View.readCov
      rw [e1, e2, readAt_zero2 arg5, read_put (m := arg5) _ _ _ _ (rfl : (![0, 64] : Fin 2 → ℕ) = _),
        read_put (m := arg5) _ _ _ _ (rfl : (![0, 0] : Fin 2 → ℕ) = _), read_put (m := arg6) _ _ _ _ rfl, put_zero2]
      exact congrArg (fun h => k0_pay9 x2 h) (hxInit_congr _ xh x1)

/-! ## What the last point leaves (`n = 7`)

As a middle point, and then the column term of the last block is added to every row: the cached columns `3584 …` times
the rows just formed (not yet staged through the small buffer). -/

section Last
variable (i : grid0.Coords) (hc1 : cond1 i)

/-- Columns `3584 …` of the cache, block `n` just stored into it. -/
def colsLast (x2 : Vec F S512x4096 .f32) (xa : Vec F S4096x4096 .bf16) : Vec F S4096x512 .bf16 :=
  box (s := S4096x4096) ![0, 3584] S4096x512.size inb_S4096x4096_S4096x512_0_3584 (adjB i x2 xa)
def outC (x2 : Vec F S512x4096 .f32) (x3 : Vec F S4096x64 .f32) (xa : Vec F S4096x4096 .bf16) (xh : Vec F S4096x128 .bf16) (xs : Vec F S512x64 .bf16) :
    FVec F S4096x64 .f32 :=
  k0_pay10 x2 (hxB i xh xs) (outB i hc1 x2 x3 xa xh xs) (colsLast i x2 xa)

end Last

/-- A load of a box of a buffer reads that box of its contents as they stand. -/
theorem readAt_eq_box {sp : Space} {s : Shape} {e : EltTy} (m : Memref sig .tc sp s e) (off size : Fin s.rank → ℕ)
    (inb : ∀ a, off a + size a ≤ s.size a) (f : m.view.ty.Contents (Elt F)) :
    View.readAt (Elt F) m.view (Rect.unit (s := s) off size inb).toLoadRect f = box off size inb (m.view.read (Elt F) f) := rfl

set_option maxHeartbeats 1000000 in
theorem sound_C (c : Dev nD) (i : grid0.Coords) (arg1 : Memref sig .tc .vmem S4096x64 .bf16) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x128 .bf16) (harg5 : arg5.IsWhole) (arg6 : Memref sig .tc .vmem S512x64 .bf16) (harg6 : arg6.IsWhole) (hc0 : ¬cond0 i) (hc1 : cond1 i) (hc2 : cond2 i)
    (x1 : Vec F S4096x64 .bf16) (x2 : Vec F S512x4096 .f32) (x3 : Vec F S4096x64 .f32) (xa : Vec F S4096x4096 .bf16) (xh : Vec F S4096x128 .bf16) (xs : Vec F S512x64 .bf16) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare xa ∗ owns (c : Thread nD τ) arg5 fullShare xh ∗ owns (c : Thread nD τ) arg6 fullShare xs
        ∗ (iprop(owns (c : Thread nD τ) arg1 fullShare x1 ∗ owns (c : Thread nD τ) arg2 fullShare x2
            ∗ owns (c : Thread nD τ) arg3 fullShare (outC i hc1 x2 x3 xa xh xs) ∗ owns (c : Thread nD τ) arg4 fullShare (adjB i x2 xa)
            ∗ owns (c : Thread nD τ) arg5 fullShare (hxB i xh xs) ∗ owns (c : Thread nD τ) arg6 fullShare (h1sB i x2 xh xs)) -∗ K ⟨⟩))
      ⊢ wp frame (wpE (defs₀ (F := F)) Variants.none c none) E (cc0__sgconv_kernel i arg1 harg1 arg2 harg2 arg3 harg3 arg4 harg4 arg5 harg5 arg6 harg6) K := by
  have hn1 : 1 ≤ (i 0).val := (hcond1 i).mp hc1
  have hn8 : (i 0).val < 8 := coord_lt i
  simp only [cc0__sgconv_kernel_eq_skeleton]; unfold cc0__sgconv_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc0 | exact hc1 | exact hc2)
  sl_step
  sl_unfold_run_names
  have e2 := (readAt_box harg2 x2 _ _ inb_S512x4096_S512x4096_0_0).trans (box_zero2 _ x2)
  have e3 := (readAt_box harg3 x3 _ _ inb_S4096x64_S4096x64_0_0).trans (box_zero2 _ x3)
  have e6 := (readAt_box harg6 xs _ _ inb_S512x64_S512x64_0_0).trans (box_zero2 _ xs)
  have h5 : arg5.view.read (Elt F) (arg5.view.writes (Elt F) (harg5.unread xh)
      [⟨Rect.unit (s := S4096x128) (k0_off2 i) S512x64.size (k0_off2_inb i hc1), k0_pay4 xs⟩]) = hxB i xh xs := by
    rw [read_put (m := arg5) _ _ _ _ (k0_off2_pos i hn1), read_nil]; rfl
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; rotate_left
    · iexact H3
    · ipureintro
      rw [read_put (m := arg3) (harg3.unread x3) _ _ _ (rfl : (![0, 0] : Fin 2 → ℕ) = _), put_zero2]
      unfold View.readCov
      rw [e2, e3, e6, readAt_box harg4 xa, readAt_zero2 arg5, h5, readAt_zero2 arg3,
        read_put (m := arg3) _ _ _ _ (k0_off4_eq i), read_put (m := arg3) _ _ _ _ rfl, put_zero2,
        readAt_eq_box arg4, read_put (m := arg4) _ _ _ _ (k0_off3_eq i), read_nil]
      rfl
  isplitl [H4]
  · iexists _; isplitr; rotate_left
    · iexact H4
    · ipureintro
      rw [e2, read_put (m := arg4) _ _ _ _ (k0_off3_eq i), read_nil]
      rfl
  isplitl [H5]
  · iexists _; isplitr; rotate_left
    · iexact H5
    · ipureintro
      rw [e6]; exact h5
  · iexists _; isplitr; rotate_left
    · iexact H6
    · ipureintro
      rw [e2, e6, readAt_zero2 arg5, h5, read_put (m := arg6) _ _ _ _ rfl, put_zero2]
      rfl

end Cert.Kernel.Body

end
-- ==== Proof.KFrameRun.lean ====
import proofs.«107282_g65807488909795_cont_9to1_m_465_25_alg».proof.Proof.KBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

/-- The three scratch buffers, whole. -/
abbrev scM0 : Memref sig .tc .vmem S4096x4096 .bf16 := Memref.whole cc0_scratch0
abbrev scM1 : Memref sig .tc .vmem S4096x128 .bf16 := Memref.whole cc0_scratch1
abbrev scM2 : Memref sig .tc .vmem S512x64 .bf16 := Memref.whole cc0_scratch2

/-- Each window's current staging buffer at point `t`, and that it is a whole buffer. -/
abbrev ms0 (t : Fin cfg0.N) : Memref sig .tc .vmem S4096x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x64 .f32 := win0_2.stage (cfg0.slots t 2)
abbrev hs2 (t : Fin cfg0.N) : (ms2 t).IsWhole := hstage0_2 ((cfg0.slots t 2).cast nbuf0_2)

/-- What a region hands its body besides the windows: the three scratch buffers at some contents each, and the
    generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-! ## The body at any point, whatever the buffers hold

The coordinate decides which of the three runs applies; each leaves the two input buffers as they were and every
other buffer at some contents. -/

set_option maxHeartbeats 1600000 in
theorem sound_any (c : Dev nD) (t : Fin cfg0.N)
    (Y : (w : Fin cfg0.W) → (cfg0.win w).block.Idx → Elt F (cfg0.win w).elt)
    (xa : Vec F S4096x4096 .bf16) (xh : Vec F S4096x128 .bf16) (xs : Vec F S512x64 .bf16) (K : PUnit → sProp 𝕄) :
    iprop(owns (c : Thread nD τ) (ms0 t) fullShare (Y 0) ∗ owns (c : Thread nD τ) (ms1 t) fullShare (Y 1) ∗ owns (c : Thread nD τ) (ms2 t) fullShare (Y 2)
        ∗ owns (c : Thread nD τ) scM0 fullShare xa ∗ owns (c : Thread nD τ) scM1 fullShare xh ∗ owns (c : Thread nD τ) scM2 fullShare xs
        ∗ (iprop(owns (c : Thread nD τ) (ms0 t) fullShare (Y 0) ∗ owns (c : Thread nD τ) (ms1 t) fullShare (Y 1)
            ∗ (∃ d, owns (c : Thread nD τ) (ms2 t) fullShare d) ∗ (∃ d, owns (c : Thread nD τ) scM0 fullShare d)
            ∗ (∃ d, owns (c : Thread nD τ) scM1 fullShare d) ∗ (∃ d, owns (c : Thread nD τ) scM2 fullShare d)) -∗ K ⟨⟩))
      ⊢ wp frame (wpE (defs₀ (F := F)) Variants.none c none) Set.univ (bodyAt0 t) K := by
  unfold bodyAt0
  have h8 := coord_lt (grid0.coords t)
  by_cases h0 : (grid0.coords t 0).val = 0
  · have hc0 : cond0 (grid0.coords t) := (hcond0 _).mpr h0
    have hc1 : ¬cond1 (grid0.coords t) := fun h => by have := (hcond1 _).mp h; omega
    have hc2 : ¬cond2 (grid0.coords t) := fun h => by have := (hcond2 _).mp h; omega
    iintro ⟨H0, H1, H2, Ha, Hh, Hs, Hk⟩
    iapply (sound_A c (grid0.coords t) (ms0 t) (hs0 t) (ms1 t) (hs1 t) (ms2 t) (hs2 t) scM0 (Memref.isWhole_whole _) scM1 (Memref.isWhole_whole _) scM2 (Memref.isWhole_whole _) hc0 hc1 hc2 (Y 0) (Y 1) (Y 2) xa xh xs Set.univ K)
    isplitl [H0]; · iexact H0
    isplitl [H1]; · iexact H1
    isplitl [H2]; · iexact H2
    isplitl [Ha]; · iexact Ha
    isplitl [Hh]; · iexact Hh
    isplitl [Hs]; · iexact Hs
    iintro ⟨H0, H1, H2, Ha, Hh, Hs⟩
    iapply Hk
    isplitl [H0]; · iexact H0
    isplitl [H1]; · iexact H1
    isplitl [H2]; · iexists _; iexact H2
    isplitl [Ha]; · iexists _; iexact Ha
    isplitl [Hh]; · iexists _; iexact Hh
    iexists _; iexact Hs
  · have hc0 : ¬cond0 (grid0.coords t) := fun h => h0 ((hcond0 _).mp h)
    have hc1 : cond1 (grid0.coords t) := (hcond1 _).mpr (by omega)
    by_cases h7 : (grid0.coords t 0).val = 7
    · have hc2 : cond2 (grid0.coords t) := (hcond2 _).mpr h7
      iintro ⟨H0, H1, H2, Ha, Hh, Hs, Hk⟩
      iapply (sound_C c (grid0.coords t) (ms0 t) (hs0 t) (ms1 t) (hs1 t) (ms2 t) (hs2 t) scM0 (Memref.isWhole_whole _) scM1 (Memref.isWhole_whole _) scM2 (Memref.isWhole_whole _) hc0 hc1 hc2 (Y 0) (Y 1) (Y 2) xa xh xs Set.univ K)
      isplitl [H0]; · iexact H0
      isplitl [H1]; · iexact H1
      isplitl [H2]; · iexact H2
      isplitl [Ha]; · iexact Ha
      isplitl [Hh]; · iexact Hh
      isplitl [Hs]; · iexact Hs
      iintro ⟨H0, H1, H2, Ha, Hh, Hs⟩
      iapply Hk
      isplitl [H0]; · iexact H0
      isplitl [H1]; · iexact H1
      isplitl [H2]; · iexists _; iexact H2
      isplitl [Ha]; · iexists _; iexact Ha
      isplitl [Hh]; · iexists _; iexact Hh
      iexists _; iexact Hs
    · have hc2 : ¬cond2 (grid0.coords t) := fun h => h7 ((hcond2 _).mp h)
      iintro ⟨H0, H1, H2, Ha, Hh, Hs, Hk⟩
      iapply (sound_B c (grid0.coords t) (ms0 t) (hs0 t) (ms1 t) (hs1 t) (ms2 t) (hs2 t) scM0 (Memref.isWhole_whole _) scM1 (Memref.isWhole_whole _) scM2 (Memref.isWhole_whole _) hc0 hc1 hc2 (Y 0) (Y 1) (Y 2) xa xh xs Set.univ K)
      isplitl [H0]; · iexact H0
      isplitl [H1]; · iexact H1
      isplitl [H2]; · iexact H2
      isplitl [Ha]; · iexact Ha
      isplitl [Hh]; · iexact Hh
      isplitl [Hs]; · iexact Hs
      iintro ⟨H0, H1, H2, Ha, Hh, Hs⟩
      iapply Hk
      isplitl [H0]; · iexact H0
      isplitl [H1]; · iexact H1
      isplitl [H2]; · iexists _; iexact H2
      isplitl [Ha]; · iexists _; iexact Ha
      isplitl [Hh]; · iexists _; iexact Hh
      iexists _; iexact Hs

/-! ## The frame: proof data that says nothing of what the body leaves -/

/-- The arrays as the region finds them; of what the body leaves in a staging buffer, nothing; the invariant what
    every region hands its body; nothing owed; full shares. -/
def rdF (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

set_option maxHeartbeats 1600000 in
theorem obligationF (c : Dev nD) : (rdF m c).BodyObligation (defs₀ (F := F)) Variants.none () Set.univ := fun t Y _ => by
  rw [bigSep_W0, bigSep_W0]
  show iprop(Pipeline.ΦA spec0 c ∗ (rdF m c).owesAt () t.castSucc
        ∗ owns (c : Thread nD τ) (ms0 t) fullShare (Y 0) ∗ owns (c : Thread nD τ) (ms1 t) fullShare (Y 1) ∗ owns (c : Thread nD τ) (ms2 t) fullShare (Y 2))
      ⊢ wp frame (wpE (defs₀ (F := F)) Variants.none c none) Set.univ (bodyAt0 t) (fun _ =>
        iprop(Pipeline.ΦA spec0 c ∗ (rdF m c).owesAt () t.castSucc
          ∗ (∃ X, ⌜True⌝ ∗ owns (c : Thread nD τ) (ms0 t) fullShare X) ∗ (∃ X, ⌜True⌝ ∗ owns (c : Thread nD τ) (ms1 t) fullShare X)
          ∗ (∃ X, ⌜True⌝ ∗ owns (c : Thread nD τ) (ms2 t) fullShare X)))
  rw [PhiA_eq]
  iintro ⟨⟨⟨⟨%xa, Ha⟩, ⟨%xh, Hh⟩, ⟨%xs, Hs⟩⟩, Hg⟩, Ho, H0, H1, H2⟩
  iapply (sound_any c t Y xa xh xs _)
  isplitl [H0]; · iexact H0
  isplitl [H1]; · iexact H1
  isplitl [H2]; · iexact H2
  isplitl [Ha]; · iexact Ha
  isplitl [Hh]; · iexact Hh
  isplitl [Hs]; · iexact Hs
  iintro ⟨H0, H1, ⟨%d2, H2⟩, ⟨%da, Ha⟩, ⟨%dh, Hh⟩, ⟨%ds, Hs⟩⟩
  isplitl [Ha Hh Hs Hg]
  · isplitr [Hg]
    · isplitl [Ha]; · iexists _; iexact Ha
      isplitl [Hh]; · iexists _; iexact Hh
      iexists _; iexact Hs
    · iexact Hg
  isplitl [Ho]; · iexact Ho
  isplitl [H0]
  · iexists _; isplitr; · ipureintro; trivial
    iexact H0
  isplitl [H1]
  · iexists _; isplitr; · ipureintro; trivial
    iexact H1
  · iexists _; isplitr; · ipureintro; trivial
    iexact H2

set_option backward.isDefEq.respectTransparency.types false in
/-- Every weakly fair execution of @main terminates without a fault; every array of the region holds some contents
    it may hold after every write-back, every other unscoped buffer what the region found in it. -/
theorem run_frame : θ_run defs (onTc (τ := τ) (main (F := F))) (s₀ m ρ) (RDat.FramePost cfg0 (rdF m) (V m)) :=
  Pipeline.RDat.θ_run_frame cfgs (0 : Fin 1) launch0 defs₀ Variants.none (rdF m) m ρ main
    (hbody := obligationF m) (hshare := fun c => (rdF m c).share_full fun _ => rfl)
    (howed := fun _ _ => rfl) (V := V m) (hmain := hmain m Variants.none) (hA := fun _ _ => rfl) (hΦ := fun _ _ => rfl)

/-- The argument arrays end as they began: the matrix is an input window's array, never written back; the features'
    array is staged by no window and bypasses the region. -/
theorem frame_claim : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
      (by
        have h1 := (h c).1 1
        rw [Pipeline.RDat.ArrAt_in (rdF m c) 1 rfl] at h1
        exact h1.trans (V_main_arg1 m c))⟩) (run_frame m ρ)

end Cert.Kernel.Body

end
-- ==== Proof.Body.lean ====
import proofs.«107282_g65807488909795_cont_9to1_m_465_25_alg».proof.Proof.Gen.KernelIdeal.Frame
import proofs.«107282_g65807488909795_cont_9to1_m_465_25_alg».proof.Proof.Gen.KernelIdeal.Skeleton
import Idealize.ShloMosaic.Lib.WritesUnit
import Idealize.ShloMosaic.Lib.WholeRead

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The three conditions of the body, and the offsets it computes, in closed form

The grid has one axis of eight points; write `n` for the coordinate. The body initialises at `n = 0`, adds the
previous block's column term at `n ≥ 1`, and adds the last column term at `n = 7`. -/

abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1
abbrev cond2 (i : grid0.Coords) : Prop := (Scalar.cmpi .ne (Scalar.extui (Scalar.cmpi .eq (BitVec.ofNat 32 (i 0).val) 7#32)) 0#32) = 1#1

theorem hcond0 : ∀ i : grid0.Coords, cond0 i ↔ (i 0).val = 0 := by decide +kernel
theorem hcond1 : ∀ i : grid0.Coords, cond1 i ↔ 1 ≤ (i 0).val := by decide +kernel
theorem hcond2 : ∀ i : grid0.Coords, cond2 i ↔ (i 0).val = 7 := by decide +kernel
theorem coord_lt : ∀ i : grid0.Coords, (i 0).val < 8 := by decide +kernel

/-- The column offset of the previous block, `512 (n - 1)`, is computed in 32-bit words: stated for every `n` it is a
    residue, which is `512 (n - 1)` from `n = 1` on. -/
theorem k0_off1_eq : ∀ i : grid0.Coords, k0_off1 i = ![0, (512 * (i 0).val + 4294966784) % 4294967296] := by decide +kernel
instance closedOff_k0_off1 (i : grid0.Coords) : ClosedOff (k0_off1 i) := ⟨![0, (512 * (i 0).val + 4294966784) % 4294967296], k0_off1_eq i⟩
theorem k0_off2_eq : ∀ i : grid0.Coords, k0_off2 i = ![(512 * (i 0).val + 4294966784) % 4294967296, 0] := by decide +kernel
instance closedOff_k0_off2 (i : grid0.Coords) : ClosedOff (k0_off2 i) := ⟨![(512 * (i 0).val + 4294966784) % 4294967296, 0], k0_off2_eq i⟩

theorem k0_off1_pos (i : grid0.Coords) (h : 1 ≤ (i 0).val) : k0_off1 i = ![0, 512 * ((i 0).val - 1)] := by
  have h8 := coord_lt i
  rw [k0_off1_eq]
  have : (512 * (i 0).val + 4294966784) % 4294967296 = 512 * ((i 0).val - 1) := by omega
  rw [this]
theorem k0_off2_pos (i : grid0.Coords) (h : 1 ≤ (i 0).val) : k0_off2 i = ![512 * ((i 0).val - 1), 0] := by
  have h8 := coord_lt i
  rw [k0_off2_eq]
  have : (512 * (i 0).val + 4294966784) % 4294967296 = 512 * ((i 0).val - 1) := by omega
  rw [this]

/-! ## A box written over an array, and a box read out of one -/

/-- The array `base` overwritten, on the box of sizes `size` at offsets `off`, by `w` (read at the index minus the
    offsets). -/
def put {s : Shape} {e : EltTy} (off size : Fin s.rank → ℕ) (base : Vec F s e)
    (w : ((a : Fin s.rank) → Fin (size a)) → Elt F e) : Vec F s e :=
  fun y => if h : ∀ a, off a ≤ (y a).val ∧ (y a).val < off a + size a then w (Rect.unitLocal (s := s) (off := off) (size := size) y h) else base y

/-- The box of sizes `size` at offsets `off` of the array `x`. -/
def box {s : Shape} {e : EltTy} (off size : Fin s.rank → ℕ) (inb : ∀ a, off a + size a ≤ s.size a) (x : Vec F s e) :
    (Rect.unit (s := s) off size inb).toLoadRect.shape.Idx → Elt F e :=
  fun z => x ((Rect.unit (s := s) off size inb).toLoadRect.idx z)

section Whole
variable {sp : Space} {s : Shape} {e : EltTy} {m : Memref sig .tc sp s e}

/-- A load of a box of a whole buffer held at `x` reads that box of `x`. -/
theorem readAt_box (hm : m.IsWhole) (x : Vec F s e) (off size : Fin s.rank → ℕ) (inb : ∀ a, off a + size a ≤ s.size a) :
    View.readAt (Elt F) m.view (Rect.unit (s := s) off size inb).toLoadRect (hm.unread x) = box off size inb x :=
  funext fun z => hm.readAt_unread x _ z

/-- The newest store read back: the stored box over what the earlier stores left. -/
theorem read_put (f : m.view.ty.Contents (Elt F)) {off off' size : Fin s.rank → ℕ} (inb : ∀ a, off a + size a ≤ s.size a)
    (w : (Rect.unit (s := s) off size inb).shape.Idx → Elt F e) (L : List (View.Piece (Elt F) s e)) (heq : off = off') :
    m.view.read (Elt F) (m.view.writes (Elt F) f ((⟨Rect.unit off size inb, w⟩ : View.Piece (Elt F) s e) :: L))
      = put off' size (m.view.read (Elt F) (m.view.writes (Elt F) f L)) w :=
  funext fun y => View.read_writes_cons_unit m.view f inb w L y heq

theorem read_nil (hm : m.IsWhole) (x : Vec F s e) : m.view.read (Elt F) (m.view.writes (Elt F) (hm.unread x) []) = x := by
  rw [View.writes_nil]; exact hm.read_unread x
end Whole

/-- The whole box of an array is the array. -/
theorem box_whole {s : Shape} {e : EltTy} (inb : ∀ a, (fun _ => 0 : Fin s.rank → ℕ) a + s.size a ≤ s.size a) (x : Vec F s e) :
    box (fun _ => 0) s.size inb x = x := by
  funext z; unfold box; congr 1; funext a; apply Fin.ext
  show 0 + 1 * (z a).val = (z a).val
  omega

/-- Writing the whole box leaves only what was written. -/
theorem put_whole {s : Shape} {e : EltTy} (base : Vec F s e) (w : ((a : Fin s.rank) → Fin (s.size a)) → Elt F e) :
    put (fun _ => 0) s.size base w = w := by
  funext y; unfold put
  rw [dif_pos (fun a => ⟨Nat.zero_le _, by rw [Nat.zero_add]; exact (y a).isLt⟩)]
  congr 1

/-- The box at offsets zero of every size of a rank-2 array is the array; writing it leaves only what was written. -/
theorem box_zero2 {d : Fin 2 → ℕ} {e : EltTy} (inb : ∀ a, (![0, 0] : Fin 2 → ℕ) a + (⟨2, d⟩ : Shape).size a ≤ (⟨2, d⟩ : Shape).size a)
    (x : Vec F (⟨2, d⟩ : Shape) e) : box (s := (⟨2, d⟩ : Shape)) ![0, 0] (⟨2, d⟩ : Shape).size inb x = x := by
  funext z; unfold box; congr 1; funext a; apply Fin.ext
  show (![0, 0] : Fin 2 → ℕ) a + 1 * (z a).val = (z a).val
  match a with
  | ⟨0, _⟩ => show 0 + 1 * _ = _; omega
  | ⟨1, _⟩ => show 0 + 1 * _ = _; omega

theorem put_zero2 {d : Fin 2 → ℕ} {e : EltTy} (base : Vec F (⟨2, d⟩ : Shape) e) (w : ((a : Fin 2) → Fin (d a)) → Elt F e) :
    put (s := (⟨2, d⟩ : Shape)) ![0, 0] d base w = w := by
  funext y; unfold put
  have h : ∀ a : Fin 2, (![0, 0] : Fin 2 → ℕ) a ≤ (y a).val ∧ (y a).val < (![0, 0] : Fin 2 → ℕ) a + d a := fun a => by
    match a with
    | ⟨0, _⟩ => exact ⟨Nat.zero_le _, by show _ < 0 + _; rw [Nat.zero_add]; exact (y _).isLt⟩
    | ⟨1, _⟩ => exact ⟨Nat.zero_le _, by show _ < 0 + _; rw [Nat.zero_add]; exact (y _).isLt⟩
  rw [dif_pos h]
  congr 1; funext a; apply Fin.ext
  match a with
  | ⟨0, _⟩ => rfl
  | ⟨1, _⟩ => rfl

/-- A load of the whole of a rank-2 buffer reads its contents as they stand. -/
theorem readAt_zero2 {sp : Space} {d : Fin 2 → ℕ} {e : EltTy} (m : Memref sig .tc sp (⟨2, d⟩ : Shape) e)
    (inb : ∀ a, (![0, 0] : Fin 2 → ℕ) a + (⟨2, d⟩ : Shape).size a ≤ (⟨2, d⟩ : Shape).size a) (f : m.view.ty.Contents (Elt F)) :
    View.readAt (Elt F) m.view (Rect.unit (s := (⟨2, d⟩ : Shape)) ![0, 0] (⟨2, d⟩ : Shape).size inb).toLoadRect f = m.view.read (Elt F) f := by
  funext z; rw [View.readAt_apply]; congr 1; funext a; apply Fin.ext
  show (![0, 0] : Fin 2 → ℕ) a + 1 * (z a).val = (z a).val
  match a with
  | ⟨0, _⟩ => show 0 + 1 * _ = _; omega
  | ⟨1, _⟩ => show 0 + 1 * _ = _; omega

/-! ## What a middle point leaves (`1 ≤ n`, `n ≠ 7`)

The running output gets the column term of block `n - 1` (the cached columns `512 (n - 1) …` of every row times the
staged rows), those staged rows go into the left half of the wide operand, block `n` of the matrix is cached, the
product of block `n` with the wide operand is formed, its left half replaces rows `512 n …` of the output and its right
half is staged. -/

section Middle
variable (i : grid0.Coords) (hc1 : cond1 i)

/-- Columns `512 (n - 1) …` of the cached matrix. -/
def colsPrev (xa : Vec F S4096x4096 .bf16) : Vec F S4096x512 .bf16 :=
  box (s := S4096x4096) (k0_off1 i) S4096x512.size (k0_off1_inb i hc1) xa
/-- The output after the column term of block `n - 1`. -/
def outAcc (x3 : Vec F S4096x64 .f32) (xa : Vec F S4096x4096 .bf16) (xs : Vec F S512x64 .bf16) : FVec F S4096x64 .f32 :=
  k0_pay3 x3 (colsPrev i hc1 xa) xs
/-- The wide operand with the staged rows published. -/
def hxB (xh : Vec F S4096x128 .bf16) (xs : Vec F S512x64 .bf16) : Vec F S4096x128 .bf16 :=
  put ![512 * ((i 0).val - 1), 0] S512x64.size xh (k0_pay4 xs)
/-- The cache with block `n` of the matrix. -/
def adjB (x2 : Vec F S512x4096 .f32) (xa : Vec F S4096x4096 .bf16) : Vec F S4096x4096 .bf16 :=
  put ![512 * (i 0).val, 0] S512x4096.size xa (k0_pay6 x2)
/-- The output after rows `512 n …` are replaced. -/
def outB (x2 : Vec F S512x4096 .f32) (x3 : Vec F S4096x64 .f32) (xa : Vec F S4096x4096 .bf16) (xh : Vec F S4096x128 .bf16) (xs : Vec F S512x64 .bf16) :
    Vec F S4096x64 .f32 :=
  put ![512 * (i 0).val, 0] S512x64.size (outAcc i hc1 x3 xa xs) (k0_pay8 x2 (hxB i xh xs))
/-- The rows staged for the next point. -/
def h1sB (x2 : Vec F S512x4096 .f32) (xh : Vec F S4096x128 .bf16) (xs : Vec F S512x64 .bf16) : FVec F S512x64 .bf16 :=
  k0_pay9 x2 (hxB i xh xs)

end Middle

set_option maxHeartbeats 1000000 in
theorem sound_B (c : Dev nD) (i : grid0.Coords) (arg1 : Memref sig .tc .vmem S4096x64 .bf16) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x128 .bf16) (harg5 : arg5.IsWhole) (arg6 : Memref sig .tc .vmem S512x64 .bf16) (harg6 : arg6.IsWhole) (hc0 : ¬cond0 i) (hc1 : cond1 i) (hc2 : ¬cond2 i)
    (x1 : Vec F S4096x64 .bf16) (x2 : Vec F S512x4096 .f32) (x3 : Vec F S4096x64 .f32) (xa : Vec F S4096x4096 .bf16) (xh : Vec F S4096x128 .bf16) (xs : Vec F S512x64 .bf16) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare xa ∗ owns (c : Thread nD τ) arg5 fullShare xh ∗ owns (c : Thread nD τ) arg6 fullShare xs
        ∗ (iprop(owns (c : Thread nD τ) arg1 fullShare x1 ∗ owns (c : Thread nD τ) arg2 fullShare x2
            ∗ owns (c : Thread nD τ) arg3 fullShare (outB i hc1 x2 x3 xa xh xs) ∗ owns (c : Thread nD τ) arg4 fullShare (adjB i x2 xa)
            ∗ owns (c : Thread nD τ) arg5 fullShare (hxB i xh xs) ∗ owns (c : Thread nD τ) arg6 fullShare (h1sB i x2 xh xs)) -∗ K ⟨⟩))
      ⊢ wp frame (wpE (defs₀ (F := F)) Variants.none c none) E (cc0__sgconv_kernel i arg1 harg1 arg2 harg2 arg3 harg3 arg4 harg4 arg5 harg5 arg6 harg6) K := by
  have hn1 : 1 ≤ (i 0).val := (hcond1 i).mp hc1
  have hn8 : (i 0).val < 8 := coord_lt i
  simp only [cc0__sgconv_kernel_eq_skeleton]; unfold cc0__sgconv_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc0 | exact hc1 | exact hc2)
  sl_step
  sl_unfold_run_names
  have e2 := (readAt_box harg2 x2 _ _ inb_S512x4096_S512x4096_0_0).trans (box_zero2 _ x2)
  have e3 := (readAt_box harg3 x3 _ _ inb_S4096x64_S4096x64_0_0).trans (box_zero2 _ x3)
  have e6 := (readAt_box harg6 xs _ _ inb_S512x64_S512x64_0_0).trans (box_zero2 _ xs)
  have h5 : arg5.view.read (Elt F) (arg5.view.writes (Elt F) (harg5.unread xh)
      [⟨Rect.unit (s := S4096x128) (k0_off2 i) S512x64.size (k0_off2_inb i hc1), k0_pay4 xs⟩]) = hxB i xh xs := by
    rw [read_put (m := arg5) _ _ _ _ (k0_off2_pos i hn1), read_nil]; rfl
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; rotate_left
    · iexact H3
    · ipureintro
      rw [e2, e3, e6, readAt_box harg4 xa, readAt_zero2 arg5, h5, read_put (m := arg3) _ _ _ _ (k0_off4_eq i),
        read_put (m := arg3) _ _ _ _ rfl, put_zero2]
      rfl
  isplitl [H4]
  · iexists _; isplitr; rotate_left
    · iexact H4
    · ipureintro
      rw [e2, read_put (m := arg4) _ _ _ _ (k0_off3_eq i), read_nil]
      rfl
  isplitl [H5]
  · iexists _; isplitr; rotate_left
    · iexact H5
    · ipureintro
      rw [e6]; exact h5
  · iexists _; isplitr; rotate_left
    · iexact H6
    · ipureintro
      rw [e2, e6, readAt_zero2 arg5, h5, read_put (m := arg6) _ _ _ _ rfl, put_zero2]
      rfl

/-! ## What the first point leaves (`n = 0`)

The wide operand is set whole — zeros on its left half, the features on its right half — then the point goes on as
every other does: block `n` cached, the product formed, its left half into rows `512 n …` of the output, its right
half staged. Nothing is added to the output here. -/

section First

/-- The wide operand as the first point sets it, over whatever it held: nothing of `b` is left. -/
def hxInit (b : Vec F S4096x128 .bf16) (x1 : Vec F S4096x64 .bf16) : Vec F S4096x128 .bf16 :=
  put ![0, 64] S4096x64.size (put ![0, 0] S4096x64.size b (k0_pay1 (F := F))) (k0_pay2 x1)

theorem hxInit_congr (b b' : Vec F S4096x128 .bf16) (x1 : Vec F S4096x64 .bf16) : hxInit b x1 = hxInit b' x1 := by
  funext y; unfold hxInit put
  have y0 : (y 0).val < 4096 := (y 0).isLt
  have y1 : (y 1).val < 128 := (y 1).isLt
  by_cases h : ∀ a, (![0, 64] : Fin 2 → ℕ) a ≤ (y a).val ∧ (y a).val < (![0, 64] : Fin 2 → ℕ) a + S4096x64.size a
  · rw [dif_pos h, dif_pos h]
  · rw [dif_neg h, dif_neg h]
    have h' : ∀ a, (![0, 0] : Fin 2 → ℕ) a ≤ (y a).val ∧ (y a).val < (![0, 0] : Fin 2 → ℕ) a + S4096x64.size a := by
      intro a
      match a with
      | ⟨0, _⟩ => exact ⟨Nat.zero_le _, by show (y 0).val < 0 + 4096; omega⟩
      | ⟨1, _⟩ =>
        refine ⟨Nat.zero_le _, ?_⟩
        show (y 1).val < 0 + 64
        by_contra hlt
        apply h
        intro a
        match a with
        | ⟨0, _⟩ => exact ⟨Nat.zero_le _, by show (y 0).val < 0 + 4096; omega⟩
        | ⟨1, _⟩ => exact ⟨by show 64 ≤ (y 1).val; omega, by show (y 1).val < 64 + 64; omega⟩
    rw [dif_pos h', dif_pos h']

variable (i : grid0.Coords)

def outA (x1 : Vec F S4096x64 .bf16) (x2 : Vec F S512x4096 .f32) (x3 : Vec F S4096x64 .f32) (xh : Vec F S4096x128 .bf16) : Vec F S4096x64 .f32 :=
  put ![512 * (i 0).val, 0] S512x64.size x3 (k0_pay8 x2 (hxInit xh x1))
def h1sA (x1 : Vec F S4096x64 .bf16) (x2 : Vec F S512x4096 .f32) (xh : Vec F S4096x128 .bf16) : FVec F S512x64 .bf16 :=
  k0_pay9 x2 (hxInit xh x1)

end First

set_option maxHeartbeats 1000000 in
theorem sound_A (c : Dev nD) (i : grid0.Coords) (arg1 : Memref sig .tc .vmem S4096x64 .bf16) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x128 .bf16) (harg5 : arg5.IsWhole) (arg6 : Memref sig .tc .vmem S512x64 .bf16) (harg6 : arg6.IsWhole) (hc0 : cond0 i) (hc1 : ¬cond1 i) (hc2 : ¬cond2 i)
    (x1 : Vec F S4096x64 .bf16) (x2 : Vec F S512x4096 .f32) (x3 : Vec F S4096x64 .f32) (xa : Vec F S4096x4096 .bf16) (xh : Vec F S4096x128 .bf16) (xs : Vec F S512x64 .bf16) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare xa ∗ owns (c : Thread nD τ) arg5 fullShare xh ∗ owns (c : Thread nD τ) arg6 fullShare xs
        ∗ (iprop(owns (c : Thread nD τ) arg1 fullShare x1 ∗ owns (c : Thread nD τ) arg2 fullShare x2
            ∗ owns (c : Thread nD τ) arg3 fullShare (outA i x1 x2 x3 xh) ∗ owns (c : Thread nD τ) arg4 fullShare (adjB i x2 xa)
            ∗ owns (c : Thread nD τ) arg5 fullShare (hxInit xh x1) ∗ owns (c : Thread nD τ) arg6 fullShare (h1sA x1 x2 xh)) -∗ K ⟨⟩))
      ⊢ wp frame (wpE (defs₀ (F := F)) Variants.none c none) E (cc0__sgconv_kernel i arg1 harg1 arg2 harg2 arg3 harg3 arg4 harg4 arg5 harg5 arg6 harg6) K := by
  simp only [cc0__sgconv_kernel_eq_skeleton]; unfold cc0__sgconv_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc0 | exact hc1 | exact hc2)
  sl_step
  sl_unfold_run_names
  have e1 := (readAt_box harg1 x1 _ _ inb_S4096x64_S4096x64_0_0).trans (box_zero2 _ x1)
  have e2 := (readAt_box harg2 x2 _ _ inb_S512x4096_S512x4096_0_0).trans (box_zero2 _ x2)
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; rotate_left
    · iexact H3
    · ipureintro
      unfold View.readCov
      rw [e1, e2, readAt_zero2 arg5, read_put (m := arg5) _ _ _ _ (rfl : (![0, 64] : Fin 2 → ℕ) = _),
        read_put (m := arg5) _ _ _ _ (rfl : (![0, 0] : Fin 2 → ℕ) = _), read_put (m := arg3) _ _ _ _ (k0_off4_eq i), read_nil]
      exact congrArg (fun h => (put (s := S4096x64) (e := .f32) ![512 * (i 0).val, 0] S512x64.size x3 (k0_pay8 x2 h) : Vec F S4096x64 .f32)) (hxInit_congr _ xh x1)
  isplitl [H4]
  · iexists _; isplitr; rotate_left
    · iexact H4
    · ipureintro
      rw [e2, read_put (m := arg4) _ _ _ _ (k0_off3_eq i), read_nil]
      rfl
  isplitl [H5]
  · iexists _; isplitr; rotate_left
    · iexact H5
    · ipureintro
      rw [e1, read_put (m := arg5) _ _ _ _ (rfl : (![0, 64] : Fin 2 → ℕ) = _),
        read_put (m := arg5) _ _ _ _ (rfl : (![0, 0] : Fin 2 → ℕ) = _), read_nil]
      rfl
  · iexists _; isplitr; rotate_left
    · iexact H6
    · ipureintro
      unfold View.readCov
      rw [e1, e2, readAt_zero2 arg5, read_put (m := arg5) _ _ _ _ (rfl : (![0, 64] : Fin 2 → ℕ) = _),
        read_put (m := arg5) _ _ _ _ (rfl : (![0, 0] : Fin 2 → ℕ) = _), read_put (m := arg6) _ _ _ _ rfl, put_zero2]
      exact congrArg (fun h => k0_pay9 x2 h) (hxInit_congr _ xh x1)

/-! ## What the last point leaves (`n = 7`)

As a middle point, and then the column term of the last block is added to every row: the cached columns `3584 …` times
the rows just formed (not yet staged through the small buffer). -/

section Last
variable (i : grid0.Coords) (hc1 : cond1 i)

/-- Columns `3584 …` of the cache, block `n` just stored into it. -/
def colsLast (x2 : Vec F S512x4096 .f32) (xa : Vec F S4096x4096 .bf16) : Vec F S4096x512 .bf16 :=
  box (s := S4096x4096) ![0, 3584] S4096x512.size inb_S4096x4096_S4096x512_0_3584 (adjB i x2 xa)
def outC (x2 : Vec F S512x4096 .f32) (x3 : Vec F S4096x64 .f32) (xa : Vec F S4096x4096 .bf16) (xh : Vec F S4096x128 .bf16) (xs : Vec F S512x64 .bf16) :
    FVec F S4096x64 .f32 :=
  k0_pay10 x2 (hxB i xh xs) (outB i hc1 x2 x3 xa xh xs) (colsLast i x2 xa)

end Last

/-- A load of a box of a buffer reads that box of its contents as they stand. -/
theorem readAt_eq_box {sp : Space} {s : Shape} {e : EltTy} (m : Memref sig .tc sp s e) (off size : Fin s.rank → ℕ)
    (inb : ∀ a, off a + size a ≤ s.size a) (f : m.view.ty.Contents (Elt F)) :
    View.readAt (Elt F) m.view (Rect.unit (s := s) off size inb).toLoadRect f = box off size inb (m.view.read (Elt F) f) := rfl

set_option maxHeartbeats 1000000 in
theorem sound_C (c : Dev nD) (i : grid0.Coords) (arg1 : Memref sig .tc .vmem S4096x64 .bf16) (harg1 : arg1.IsWhole) (arg2 : Memref sig .tc .vmem S512x4096 .f32) (harg2 : arg2.IsWhole) (arg3 : Memref sig .tc .vmem S4096x64 .f32) (harg3 : arg3.IsWhole) (arg4 : Memref sig .tc .vmem S4096x4096 .bf16) (harg4 : arg4.IsWhole) (arg5 : Memref sig .tc .vmem S4096x128 .bf16) (harg5 : arg5.IsWhole) (arg6 : Memref sig .tc .vmem S512x64 .bf16) (harg6 : arg6.IsWhole) (hc0 : ¬cond0 i) (hc1 : cond1 i) (hc2 : cond2 i)
    (x1 : Vec F S4096x64 .bf16) (x2 : Vec F S512x4096 .f32) (x3 : Vec F S4096x64 .f32) (xa : Vec F S4096x4096 .bf16) (xh : Vec F S4096x128 .bf16) (xs : Vec F S512x64 .bf16) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare xa ∗ owns (c : Thread nD τ) arg5 fullShare xh ∗ owns (c : Thread nD τ) arg6 fullShare xs
        ∗ (iprop(owns (c : Thread nD τ) arg1 fullShare x1 ∗ owns (c : Thread nD τ) arg2 fullShare x2
            ∗ owns (c : Thread nD τ) arg3 fullShare (outC i hc1 x2 x3 xa xh xs) ∗ owns (c : Thread nD τ) arg4 fullShare (adjB i x2 xa)
            ∗ owns (c : Thread nD τ) arg5 fullShare (hxB i xh xs) ∗ owns (c : Thread nD τ) arg6 fullShare (h1sB i x2 xh xs)) -∗ K ⟨⟩))
      ⊢ wp frame (wpE (defs₀ (F := F)) Variants.none c none) E (cc0__sgconv_kernel i arg1 harg1 arg2 harg2 arg3 harg3 arg4 harg4 arg5 harg5 arg6 harg6) K := by
  have hn1 : 1 ≤ (i 0).val := (hcond1 i).mp hc1
  have hn8 : (i 0).val < 8 := coord_lt i
  simp only [cc0__sgconv_kernel_eq_skeleton]; unfold cc0__sgconv_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc0 | exact hc1 | exact hc2)
  sl_step
  sl_unfold_run_names
  have e2 := (readAt_box harg2 x2 _ _ inb_S512x4096_S512x4096_0_0).trans (box_zero2 _ x2)
  have e3 := (readAt_box harg3 x3 _ _ inb_S4096x64_S4096x64_0_0).trans (box_zero2 _ x3)
  have e6 := (readAt_box harg6 xs _ _ inb_S512x64_S512x64_0_0).trans (box_zero2 _ xs)
  have h5 : arg5.view.read (Elt F) (arg5.view.writes (Elt F) (harg5.unread xh)
      [⟨Rect.unit (s := S4096x128) (k0_off2 i) S512x64.size (k0_off2_inb i hc1), k0_pay4 xs⟩]) = hxB i xh xs := by
    rw [read_put (m := arg5) _ _ _ _ (k0_off2_pos i hn1), read_nil]; rfl
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; rotate_left
    · iexact H3
    · ipureintro
      rw [read_put (m := arg3) (harg3.unread x3) _ _ _ (rfl : (![0, 0] : Fin 2 → ℕ) = _), put_zero2]
      unfold View.readCov
      rw [e2, e3, e6, readAt_box harg4 xa, readAt_zero2 arg5, h5, readAt_zero2 arg3,
        read_put (m := arg3) _ _ _ _ (k0_off4_eq i), read_put (m := arg3) _ _ _ _ rfl, put_zero2,
        readAt_eq_box arg4, read_put (m := arg4) _ _ _ _ (k0_off3_eq i), read_nil]
      rfl
  isplitl [H4]
  · iexists _; isplitr; rotate_left
    · iexact H4
    · ipureintro
      rw [e2, read_put (m := arg4) _ _ _ _ (k0_off3_eq i), read_nil]
      rfl
  isplitl [H5]
  · iexists _; isplitr; rotate_left
    · iexact H5
    · ipureintro
      rw [e6]; exact h5
  · iexists _; isplitr; rotate_left
    · iexact H6
    · ipureintro
      rw [e2, e6, readAt_zero2 arg5, h5, read_put (m := arg6) _ _ _ _ rfl, put_zero2]
      rfl

end Cert.KernelIdeal.Body

end
-- ==== Proof.FrameRun.lean ====
import proofs.«107282_g65807488909795_cont_9to1_m_465_25_alg».proof.Proof.Body

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

/-- The three scratch buffers, whole. -/
abbrev scM0 : Memref sig .tc .vmem S4096x4096 .bf16 := Memref.whole cc0_scratch0
abbrev scM1 : Memref sig .tc .vmem S4096x128 .bf16 := Memref.whole cc0_scratch1
abbrev scM2 : Memref sig .tc .vmem S512x64 .bf16 := Memref.whole cc0_scratch2

/-- Each window's current staging buffer at point `t`, and that it is a whole buffer. -/
abbrev ms0 (t : Fin cfg0.N) : Memref sig .tc .vmem S4096x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x64 .f32 := win0_2.stage (cfg0.slots t 2)
abbrev hs2 (t : Fin cfg0.N) : (ms2 t).IsWhole := hstage0_2 ((cfg0.slots t 2).cast nbuf0_2)

/-- What a region hands its body besides the windows: the three scratch buffers at some contents each, and the
    generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-! ## The body at any point, whatever the buffers hold

The coordinate decides which of the three runs applies; each leaves the two input buffers as they were and every
other buffer at some contents. -/

set_option maxHeartbeats 1600000 in
theorem sound_any (c : Dev nD) (t : Fin cfg0.N)
    (Y : (w : Fin cfg0.W) → (cfg0.win w).block.Idx → Elt F (cfg0.win w).elt)
    (xa : Vec F S4096x4096 .bf16) (xh : Vec F S4096x128 .bf16) (xs : Vec F S512x64 .bf16) (K : PUnit → sProp 𝕄) :
    iprop(owns (c : Thread nD τ) (ms0 t) fullShare (Y 0) ∗ owns (c : Thread nD τ) (ms1 t) fullShare (Y 1) ∗ owns (c : Thread nD τ) (ms2 t) fullShare (Y 2)
        ∗ owns (c : Thread nD τ) scM0 fullShare xa ∗ owns (c : Thread nD τ) scM1 fullShare xh ∗ owns (c : Thread nD τ) scM2 fullShare xs
        ∗ (iprop(owns (c : Thread nD τ) (ms0 t) fullShare (Y 0) ∗ owns (c : Thread nD τ) (ms1 t) fullShare (Y 1)
            ∗ (∃ d, owns (c : Thread nD τ) (ms2 t) fullShare d) ∗ (∃ d, owns (c : Thread nD τ) scM0 fullShare d)
            ∗ (∃ d, owns (c : Thread nD τ) scM1 fullShare d) ∗ (∃ d, owns (c : Thread nD τ) scM2 fullShare d)) -∗ K ⟨⟩))
      ⊢ wp frame (wpE (defs₀ (F := F)) Variants.none c none) Set.univ (bodyAt0 t) K := by
  unfold bodyAt0
  have h8 := coord_lt (grid0.coords t)
  by_cases h0 : (grid0.coords t 0).val = 0
  · have hc0 : cond0 (grid0.coords t) := (hcond0 _).mpr h0
    have hc1 : ¬cond1 (grid0.coords t) := fun h => by have := (hcond1 _).mp h; omega
    have hc2 : ¬cond2 (grid0.coords t) := fun h => by have := (hcond2 _).mp h; omega
    iintro ⟨H0, H1, H2, Ha, Hh, Hs, Hk⟩
    iapply (sound_A c (grid0.coords t) (ms0 t) (hs0 t) (ms1 t) (hs1 t) (ms2 t) (hs2 t) scM0 (Memref.isWhole_whole _) scM1 (Memref.isWhole_whole _) scM2 (Memref.isWhole_whole _) hc0 hc1 hc2 (Y 0) (Y 1) (Y 2) xa xh xs Set.univ K)
    isplitl [H0]; · iexact H0
    isplitl [H1]; · iexact H1
    isplitl [H2]; · iexact H2
    isplitl [Ha]; · iexact Ha
    isplitl [Hh]; · iexact Hh
    isplitl [Hs]; · iexact Hs
    iintro ⟨H0, H1, H2, Ha, Hh, Hs⟩
    iapply Hk
    isplitl [H0]; · iexact H0
    isplitl [H1]; · iexact H1
    isplitl [H2]; · iexists _; iexact H2
    isplitl [Ha]; · iexists _; iexact Ha
    isplitl [Hh]; · iexists _; iexact Hh
    iexists _; iexact Hs
  · have hc0 : ¬cond0 (grid0.coords t) := fun h => h0 ((hcond0 _).mp h)
    have hc1 : cond1 (grid0.coords t) := (hcond1 _).mpr (by omega)
    by_cases h7 : (grid0.coords t 0).val = 7
    · have hc2 : cond2 (grid0.coords t) := (hcond2 _).mpr h7
      iintro ⟨H0, H1, H2, Ha, Hh, Hs, Hk⟩
      iapply (sound_C c (grid0.coords t) (ms0 t) (hs0 t) (ms1 t) (hs1 t) (ms2 t) (hs2 t) scM0 (Memref.isWhole_whole _) scM1 (Memref.isWhole_whole _) scM2 (Memref.isWhole_whole _) hc0 hc1 hc2 (Y 0) (Y 1) (Y 2) xa xh xs Set.univ K)
      isplitl [H0]; · iexact H0
      isplitl [H1]; · iexact H1
      isplitl [H2]; · iexact H2
      isplitl [Ha]; · iexact Ha
      isplitl [Hh]; · iexact Hh
      isplitl [Hs]; · iexact Hs
      iintro ⟨H0, H1, H2, Ha, Hh, Hs⟩
      iapply Hk
      isplitl [H0]; · iexact H0
      isplitl [H1]; · iexact H1
      isplitl [H2]; · iexists _; iexact H2
      isplitl [Ha]; · iexists _; iexact Ha
      isplitl [Hh]; · iexists _; iexact Hh
      iexists _; iexact Hs
    · have hc2 : ¬cond2 (grid0.coords t) := fun h => h7 ((hcond2 _).mp h)
      iintro ⟨H0, H1, H2, Ha, Hh, Hs, Hk⟩
      iapply (sound_B c (grid0.coords t) (ms0 t) (hs0 t) (ms1 t) (hs1 t) (ms2 t) (hs2 t) scM0 (Memref.isWhole_whole _) scM1 (Memref.isWhole_whole _) scM2 (Memref.isWhole_whole _) hc0 hc1 hc2 (Y 0) (Y 1) (Y 2) xa xh xs Set.univ K)
      isplitl [H0]; · iexact H0
      isplitl [H1]; · iexact H1
      isplitl [H2]; · iexact H2
      isplitl [Ha]; · iexact Ha
      isplitl [Hh]; · iexact Hh
      isplitl [Hs]; · iexact Hs
      iintro ⟨H0, H1, H2, Ha, Hh, Hs⟩
      iapply Hk
      isplitl [H0]; · iexact H0
      isplitl [H1]; · iexact H1
      isplitl [H2]; · iexists _; iexact H2
      isplitl [Ha]; · iexists _; iexact Ha
      isplitl [Hh]; · iexists _; iexact Hh
      iexists _; iexact Hs

/-! ## The frame: proof data that says nothing of what the body leaves -/

/-- The arrays as the region finds them; of what the body leaves in a staging buffer, nothing; the invariant what
    every region hands its body; nothing owed; full shares. -/
def rdF (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

set_option maxHeartbeats 1600000 in
theorem obligationF (c : Dev nD) : (rdF m c).BodyObligation (defs₀ (F := F)) Variants.none () Set.univ := fun t Y _ => by
  rw [bigSep_W0, bigSep_W0]
  show iprop(Pipeline.ΦA spec0 c ∗ (rdF m c).owesAt () t.castSucc
        ∗ owns (c : Thread nD τ) (ms0 t) fullShare (Y 0) ∗ owns (c : Thread nD τ) (ms1 t) fullShare (Y 1) ∗ owns (c : Thread nD τ) (ms2 t) fullShare (Y 2))
      ⊢ wp frame (wpE (defs₀ (F := F)) Variants.none c none) Set.univ (bodyAt0 t) (fun _ =>
        iprop(Pipeline.ΦA spec0 c ∗ (rdF m c).owesAt () t.castSucc
          ∗ (∃ X, ⌜True⌝ ∗ owns (c : Thread nD τ) (ms0 t) fullShare X) ∗ (∃ X, ⌜True⌝ ∗ owns (c : Thread nD τ) (ms1 t) fullShare X)
          ∗ (∃ X, ⌜True⌝ ∗ owns (c : Thread nD τ) (ms2 t) fullShare X)))
  rw [PhiA_eq]
  iintro ⟨⟨⟨⟨%xa, Ha⟩, ⟨%xh, Hh⟩, ⟨%xs, Hs⟩⟩, Hg⟩, Ho, H0, H1, H2⟩
  iapply (sound_any c t Y xa xh xs _)
  isplitl [H0]; · iexact H0
  isplitl [H1]; · iexact H1
  isplitl [H2]; · iexact H2
  isplitl [Ha]; · iexact Ha
  isplitl [Hh]; · iexact Hh
  isplitl [Hs]; · iexact Hs
  iintro ⟨H0, H1, ⟨%d2, H2⟩, ⟨%da, Ha⟩, ⟨%dh, Hh⟩, ⟨%ds, Hs⟩⟩
  isplitl [Ha Hh Hs Hg]
  · isplitr [Hg]
    · isplitl [Ha]; · iexists _; iexact Ha
      isplitl [Hh]; · iexists _; iexact Hh
      iexists _; iexact Hs
    · iexact Hg
  isplitl [Ho]; · iexact Ho
  isplitl [H0]
  · iexists _; isplitr; · ipureintro; trivial
    iexact H0
  isplitl [H1]
  · iexists _; isplitr; · ipureintro; trivial
    iexact H1
  · iexists _; isplitr; · ipureintro; trivial
    iexact H2

set_option backward.isDefEq.respectTransparency.types false in
/-- Every weakly fair execution of @main terminates without a fault; every array of the region holds some contents
    it may hold after every write-back, every other unscoped buffer what the region found in it. -/
theorem run_frame : θ_run defs (onTc (τ := τ) (main (F := F))) (s₀ m ρ) (RDat.FramePost cfg0 (rdF m) (V m)) :=
  Pipeline.RDat.θ_run_frame cfgs (0 : Fin 1) launch0 defs₀ Variants.none (rdF m) m ρ main
    (hbody := obligationF m) (hshare := fun c => (rdF m c).share_full fun _ => rfl)
    (howed := fun _ _ => rfl) (V := V m) (hmain := hmain m Variants.none) (hA := fun _ _ => rfl) (hΦ := fun _ _ => rfl)

/-- The argument arrays end as they began: the matrix is an input window's array, never written back; the features'
    array is staged by no window and bypasses the region. -/
theorem frame_claim : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
      (by
        have h1 := (h c).1 1
        rw [Pipeline.RDat.ArrAt_in (rdF m c) 1 rfl] at h1
        exact h1.trans (V_main_arg1 m c))⟩) (run_frame m ρ)

end Cert.KernelIdeal.Body

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.Payloads.lean ====
import proofs.«107282_g65807488909795_cont_9to1_m_465_25_alg».proof.Proof.Body
import proofs.«107282_g65807488909795_cont_9to1_m_465_25_alg».proof.Proof.LibMatmulPlain
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Body

open Cert.KernelIdeal Cert.KernelIdeal.Gen
open Idealize.ShloMosaic Idealize.ShloMosaic.ValueIdx

/-! ## The body's arithmetic on the extended reals, entry by entry

A change of float format is the identity there, a cast to the same shape changes nothing, and each matrix product into
a zero accumulator is, at an entry, the plain sum over the contracted axis. -/

theorem zero_bf16 : Scalar.ofBits (F := Ideal) .bf16 0x0000#16 = (0 : EReal) := by
  simp [Scalar.ofBits, Ideal.ofBits, Ideal.ieee]

/-- The fill of the wide operand's left half is zero. -/
theorem pay1_apply (y : S4096x64.Idx) : k0_pay1 (F := Ideal) y = (0 : EReal) := by
  unfold k0_pay1; rw [shapeCast_self]; exact zero_bf16

theorem pay2_eq (x1 : Vec Ideal S4096x64 .bf16) : k0_pay2 (F := Ideal) x1 = x1 := by
  unfold k0_pay2; dsimp only; rw [shapeCast_self, shapeCast_self]

theorem pay4_eq (xs : Vec Ideal S512x64 .bf16) : k0_pay4 (F := Ideal) xs = xs := by
  unfold k0_pay4; rw [shapeCast_self]

theorem pay5_eq (x2 : Vec Ideal S512x4096 .f32) : k0_pay5 (F := Ideal) x2 = x2 := by
  unfold k0_pay5; rfl

theorem pay6_eq (x2 : Vec Ideal S512x4096 .f32) : k0_pay6 (F := Ideal) x2 = x2 := by
  unfold k0_pay6; rw [shapeCast_self, pay5_eq]

/-- The block of the matrix against the wide operand. -/
theorem pay7_apply (x2 : Vec Ideal S512x4096 .f32) (h : Vec Ideal S4096x128 .bf16) (p : Fin 512) (q : Fin 128) :
    k0_pay7 (F := Ideal) x2 h (ix2 p q) = ∑ k : Fin 4096, (x2 (ix2 p k) : EReal) * h (ix2 k q) := by
  unfold k0_pay7; rw [pay5_eq]
  exact Cert.LibMatmulPlain.matmul_zero_apply dot_S512x4096_S4096x128_S512x128_1_0_0_1_n_n rfl rfl rfl rfl rfl rfl none x2 h p q

/-- Its left half … -/
theorem pay8_apply (x2 : Vec Ideal S512x4096 .f32) (h : Vec Ideal S4096x128 .bf16) (p : Fin 512) (f : Fin 64) :
    k0_pay8 (F := Ideal) x2 h (ix2 p f) = k0_pay7 (F := Ideal) x2 h (ix2 p ⟨f.val, by have := f.isLt; omega⟩) := by
  unfold k0_pay8
  exact extractStridedSlice_apply _ _ _ _ _ (fun a => by
    match a with
    | ⟨0, _⟩ => show p.val = 0 + p.val; omega
    | ⟨1, _⟩ => show f.val = 0 + f.val; omega)

/-- … and its right half. -/
theorem pay9_apply (x2 : Vec Ideal S512x4096 .f32) (h : Vec Ideal S4096x128 .bf16) (p : Fin 512) (f : Fin 64) :
    k0_pay9 (F := Ideal) x2 h (ix2 p f) = k0_pay7 (F := Ideal) x2 h (ix2 p ⟨64 + f.val, by have := f.isLt; omega⟩) := by
  unfold k0_pay9; rw [shapeCast_self]
  show extractStridedSlice S512x64 ![0, 64] (k0_pay7 (F := Ideal) x2 h) slices_S512x128_o0_64_S512x64 (ix2 p f) = _
  exact extractStridedSlice_apply _ _ _ _ _ (fun a => by
    match a with
    | ⟨0, _⟩ => show p.val = 0 + p.val; omega
    | ⟨1, _⟩ => show 64 + f.val = 64 + f.val; rfl)

/-- The output plus a column term: cached columns against staged rows. -/
theorem pay3_apply (x3 : Vec Ideal S4096x64 .f32) (v : Vec Ideal S4096x512 .bf16) (xs : Vec Ideal S512x64 .bf16) (r : Fin 4096) (f : Fin 64) :
    k0_pay3 (F := Ideal) x3 v xs (ix2 r f) = (x3 (ix2 r f) : EReal) + ∑ j : Fin 512, (v (ix2 r j) : EReal) * xs (ix2 j f) := by
  unfold k0_pay3; rw [shapeCast_self]
  show (x3 (ix2 r f) : EReal) + _ = _
  congr 1
  exact Cert.LibMatmulPlain.matmul_zero_apply dot_S4096x512_S512x64_S4096x64_1_0_0_1_n_n rfl rfl rfl rfl rfl rfl none v xs r f

/-- The last column term: cached columns against the right half of the product just formed. -/
theorem pay10_apply (x2 : Vec Ideal S512x4096 .f32) (h : Vec Ideal S4096x128 .bf16) (y3 : Vec Ideal S4096x64 .f32) (v : Vec Ideal S4096x512 .bf16)
    (r : Fin 4096) (f : Fin 64) :
    k0_pay10 (F := Ideal) x2 h y3 v (ix2 r f)
      = (y3 (ix2 r f) : EReal) + ∑ j : Fin 512, (v (ix2 r j) : EReal) * k0_pay7 (F := Ideal) x2 h (ix2 j ⟨64 + f.val, by have := f.isLt; omega⟩) := by
  unfold k0_pay10; rw [shapeCast_self]
  show (y3 (ix2 r f) : EReal) + _ = _
  congr 1
  refine (Cert.LibMatmulPlain.matmul_zero_apply dot_S4096x512_S512x64_S4096x64_1_0_0_1_n_n rfl rfl rfl rfl rfl rfl none v _ r f).trans ?_
  refine Finset.sum_congr rfl fun j _ => ?_
  congr 1
  show extractStridedSlice S512x64 ![0, 64] (k0_pay7 (F := Ideal) x2 h) slices_S512x128_o0_64_S512x64 (ix2 j f) = _
  exact extractStridedSlice_apply _ _ _ _ _ (fun a => by
    match a with
    | ⟨0, _⟩ => show j.val = 0 + j.val; omega
    | ⟨1, _⟩ => show 64 + f.val = 64 + f.val; rfl)

end Cert.KernelIdeal.Body

end
-- ==== Proof.Boxes.lean ====
import proofs.«107282_g65807488909795_cont_9to1_m_465_25_alg».proof.Proof.Body
import Idealize.ShloMosaic.Lib.ValueIdx

noncomputable section

namespace Cert.KernelIdeal.Body

open Idealize.ShloMosaic Idealize.ShloMosaic.ValueIdx

variable {F : FTy → Type} [FloatOps F]

/-! ## Boxes of a rank-2 array, entry by entry -/

section Rank2
variable {R C n0 n1 : ℕ} {e : EltTy}

/-- Inside the written box: the written value at the entry minus the offsets. -/
theorem put2_in (o0 o1 : ℕ) (base : Vec F (⟨2, ![R, C]⟩ : Shape) e) (w : Vec F (⟨2, ![n0, n1]⟩ : Shape) e) (r : Fin R) (q : Fin C)
    (h0 : o0 ≤ r.val ∧ r.val < o0 + n0) (h1 : o1 ≤ q.val ∧ q.val < o1 + n1) :
    put (s := (⟨2, ![R, C]⟩ : Shape)) ![o0, o1] ![n0, n1] base w (ix2 r q)
      = w (ix2 ⟨r.val - o0, by omega⟩ ⟨q.val - o1, by omega⟩) := by
  unfold put
  have h : ∀ a : Fin 2, (![o0, o1] : Fin 2 → ℕ) a ≤ ((ix2 r q : (⟨2, ![R, C]⟩ : Shape).Idx) a).val
      ∧ ((ix2 r q : (⟨2, ![R, C]⟩ : Shape).Idx) a).val < (![o0, o1] : Fin 2 → ℕ) a + (![n0, n1] : Fin 2 → ℕ) a := fun a => by
    match a with
    | ⟨0, _⟩ => exact h0
    | ⟨1, _⟩ => exact h1
  rw [dif_pos h]
  congr 1; funext a; apply Fin.ext
  match a with
  | ⟨0, _⟩ => rfl
  | ⟨1, _⟩ => rfl

/-- Outside it: what was there. -/
theorem put2_out (o0 o1 : ℕ) (base : Vec F (⟨2, ![R, C]⟩ : Shape) e) (w : Vec F (⟨2, ![n0, n1]⟩ : Shape) e) (r : Fin R) (q : Fin C)
    (h : ¬(o0 ≤ r.val ∧ r.val < o0 + n0) ∨ ¬(o1 ≤ q.val ∧ q.val < o1 + n1)) :
    put (s := (⟨2, ![R, C]⟩ : Shape)) ![o0, o1] ![n0, n1] base w (ix2 r q) = base (ix2 r q) := by
  unfold put
  rw [dif_neg]
  intro hall
  rcases h with h | h
  · exact h (hall (0 : Fin 2))
  · exact h (hall (1 : Fin 2))

/-- An entry of a box is the array's entry the offsets further on. -/
theorem box2_apply (off : Fin 2 → ℕ) (o0 o1 : ℕ) (hoff : off = ![o0, o1])
    (inb : ∀ a, off a + (![n0, n1] : Fin 2 → ℕ) a ≤ (⟨2, ![R, C]⟩ : Shape).size a)
    (x : Vec F (⟨2, ![R, C]⟩ : Shape) e) (p : Fin n0) (j : Fin n1) (h0 : o0 + p.val < R) (h1 : o1 + j.val < C) :
    box (s := (⟨2, ![R, C]⟩ : Shape)) off ![n0, n1] inb x (ix2 p j) = x (ix2 ⟨o0 + p.val, h0⟩ ⟨o1 + j.val, h1⟩) := by
  subst hoff
  unfold box; congr 1; funext a; apply Fin.ext
  match a with
  | ⟨0, _⟩ => show o0 + 1 * p.val = o0 + p.val; omega
  | ⟨1, _⟩ => show o1 + 1 * j.val = o1 + j.val; omega

end Rank2

end Cert.KernelIdeal.Body

end
-- ==== Proof.TwoHops.lean ====
/-
  Two hops of a square matrix, the second summed one block of columns at a time.

  For a matrix `A` (N × N) and an array `X` (N × C) over the extended reals, the first hop is
  `hop A X k f = ∑ j, A k j * X j f`, and `part A H n r f` is the second hop's sum restricted to the columns below `n`.
  Two facts carry the whole comparison. A product with an operand that is `H` on the rows below `n` and zero on the
  others is `part … n`, because a factor zero makes the term zero on the extended reals too. And adding the terms of the
  columns `n … n + B` to `part … n` gives `part … (n + B)`: a finite sum over the extended reals may be regrouped freely
  (addition there is commutative and associative), so no finiteness is asked of `A` or `H`.
-/
import Idealize.ShloMosaic.PureOps.Ideal

noncomputable section

open scoped BigOperators

namespace Cert.TwoHops

variable {N C : ℕ}

/-- One hop: row `k` of `A` against column `f` of `X`. -/
def hop (A : Fin N → Fin N → EReal) (X : Fin N → Fin C → EReal) (k : Fin N) (f : Fin C) : EReal :=
  ∑ j : Fin N, A k j * X j f

/-- Row `r` of `A` against column `f` of `H`, over the columns of `A` below `n` only. -/
def part (A : Fin N → Fin N → EReal) (H : Fin N → Fin C → EReal) (n : ℕ) (r : Fin N) (f : Fin C) : EReal :=
  ∑ k : Fin N, if k.val < n then A r k * H k f else 0

variable (A : Fin N → Fin N → EReal) (H : Fin N → Fin C → EReal) (r : Fin N) (f : Fin C)

theorem part_zero : part A H 0 r f = 0 := by
  unfold part; exact Finset.sum_eq_zero fun k _ => if_neg (Nat.not_lt_zero _)

/-- Over every column it is the whole second hop. -/
theorem part_full {n : ℕ} (hn : N ≤ n) : part A H n r f = ∑ k : Fin N, A r k * H k f := by
  unfold part; exact Finset.sum_congr rfl fun k _ => if_pos (lt_of_lt_of_le k.isLt hn)

/-- A right operand that is `H` on the rows below `n` and zero on the others. -/
theorem sum_mul_cut (n : ℕ) : (∑ k : Fin N, A r k * (if k.val < n then H k f else 0)) = part A H n r f := by
  unfold part
  refine Finset.sum_congr rfl fun k _ => ?_
  by_cases h : k.val < n
  · rw [if_pos h, if_pos h]
  · rw [if_neg h, if_neg h, mul_zero]

/-- The terms of the second hop along the naturals, zero past the last column. -/
def term (k : ℕ) : EReal := if h : k < N then A r ⟨k, h⟩ * H ⟨k, h⟩ f else 0

theorem part_eq_range {n : ℕ} (hn : n ≤ N) : part A H n r f = ∑ k ∈ Finset.range n, term A H r f k := by
  unfold part
  have h1 : (∑ k : Fin N, if k.val < n then A r k * H k f else 0)
      = ∑ k : Fin N, (fun k : ℕ => if k < n then term A H r f k else 0) k.val :=
    Finset.sum_congr rfl fun k _ => by
      show _ = if k.val < n then term A H r f k.val else 0
      unfold term; rw [dif_pos k.isLt]
  rw [h1, Fin.sum_univ_eq_sum_range (fun k : ℕ => if k < n then term A H r f k else 0) N, ← Finset.sum_filter]
  refine Finset.sum_congr ?_ fun _ _ => rfl
  ext k; simp only [Finset.mem_filter, Finset.mem_range]; omega

/-- Adding the terms of the columns `n … n + B`. -/
theorem part_add_block (n B : ℕ) (hB : n + B ≤ N) :
    part A H n r f + (∑ j : Fin B, A r ⟨n + j.val, by have := j.isLt; omega⟩ * H ⟨n + j.val, by have := j.isLt; omega⟩ f)
      = part A H (n + B) r f := by
  rw [part_eq_range A H r f (by omega : n ≤ N), part_eq_range A H r f hB, Finset.sum_range_add]
  congr 1
  rw [← Fin.sum_univ_eq_sum_range (fun j : ℕ => term A H r f (n + j)) B]
  refine Finset.sum_congr rfl fun j _ => ?_
  have hj : n + j.val < N := by have := j.isLt; omega
  show _ = term A H r f (n + j.val)
  unfold term; rw [dif_pos hj]

end Cert.TwoHops

end
-- ==== Proof.Steps.lean ====
import proofs.«107282_g65807488909795_cont_9to1_m_465_25_alg».proof.Proof.Payloads
import proofs.«107282_g65807488909795_cont_9to1_m_465_25_alg».proof.Proof.Boxes
import proofs.«107282_g65807488909795_cont_9to1_m_465_25_alg».proof.Proof.TwoHops

set_option maxRecDepth 16384

noncomputable section

open scoped BigOperators

namespace Cert.KernelIdeal.Body

open Cert.KernelIdeal Cert.KernelIdeal.Gen Cert.TwoHops
open Idealize.ShloMosaic Idealize.ShloMosaic.ValueIdx

/-! ## One point of the sweep, on the extended reals

`A` is the matrix and `X` the features (one rounding of each, which is no rounding here). Write `n` for the point.
Before point `n` the cache holds the rows of `A` below `512 n`; from `n = 1` on, the wide operand's right half is `X`,
its left half is `hop A X` on the rows below `512 (n - 1)` and zero on the others, and the small buffer holds rows
`512 (n - 1) …` of `hop A X`. After point `n` the rows of the output below `512 (n + 1)` hold the second hop summed over
the columns below `512 n` — every column after the last point. What the other rows, and the buffers before the first
point, hold is never used. -/

section Sweep
variable (A : Fin 4096 → Fin 4096 → EReal) (X : Fin 4096 → Fin 64 → EReal)

/-- The left and right columns of the wide operand. -/
abbrev lcol (f : Fin 64) : Fin 128 := ⟨f.val, by have := f.isLt; omega⟩
abbrev rcol (f : Fin 64) : Fin 128 := ⟨64 + f.val, by have := f.isLt; omega⟩

structure Inv (n : ℕ) (xa : Vec Ideal S4096x4096 .bf16) (xh : Vec Ideal S4096x128 .bf16) (xs : Vec Ideal S512x64 .bf16) : Prop where
  cache : ∀ (r k : Fin 4096), r.val < 512 * n → (xa (ix2 r k) : EReal) = A r k
  right : 1 ≤ n → ∀ (k : Fin 4096) (f : Fin 64), (xh (ix2 k (rcol f)) : EReal) = X k f
  left : 1 ≤ n → ∀ (k : Fin 4096) (f : Fin 64), (xh (ix2 k (lcol f)) : EReal) = if k.val < 512 * (n - 1) then hop A X k f else 0
  staged : 1 ≤ n → ∀ (p : Fin 512) (f : Fin 64) (h : 512 * (n - 1) + p.val < 4096),
    (xs (ix2 p f) : EReal) = hop A X ⟨512 * (n - 1) + p.val, h⟩ f

/-- Nothing is asked before the first point. -/
theorem Inv.zero (xa : Vec Ideal S4096x4096 .bf16) (xh : Vec Ideal S4096x128 .bf16) (xs : Vec Ideal S512x64 .bf16) : Inv A X 0 xa xh xs :=
  ⟨fun r _ h => absurd h (by omega), fun h => absurd h (by omega), fun h => absurd h (by omega), fun h => absurd h (by omega)⟩

/-- What the output holds after point `n`. -/
def Good (n : ℕ) (Y : Vec Ideal S4096x64 .f32) : Prop :=
  ∀ (r : Fin 4096) (f : Fin 64), r.val < 512 * (n + 1) → (Y (ix2 r f) : EReal) = part A (hop A X) (if n = 7 then 4096 else 512 * n) r f

/-! ### The product of a block of rows of `A` with the wide operand -/

section Product
variable (x2 : Vec Ideal S512x4096 .f32) (h : Vec Ideal S4096x128 .bf16) (o : ℕ)
  (hx2 : ∀ (p : Fin 512) (k : Fin 4096) (hb : o + p.val < 4096), (x2 (ix2 p k) : EReal) = A ⟨o + p.val, hb⟩ k)

include hx2 in
theorem prod_left (N' : ℕ) (hl : ∀ (k : Fin 4096) (f : Fin 64), (h (ix2 k (lcol f)) : EReal) = if k.val < N' then hop A X k f else 0)
    (p : Fin 512) (f : Fin 64) (hb : o + p.val < 4096) :
    k0_pay7 (F := Ideal) x2 h (ix2 p (lcol f)) = part A (hop A X) N' ⟨o + p.val, hb⟩ f := by
  rw [pay7_apply, ← sum_mul_cut]
  exact Finset.sum_congr rfl fun k _ => by rw [hx2 p k hb, hl k f]

include hx2 in
theorem prod_right (hr : ∀ (k : Fin 4096) (f : Fin 64), (h (ix2 k (rcol f)) : EReal) = X k f)
    (p : Fin 512) (f : Fin 64) (hb : o + p.val < 4096) :
    k0_pay7 (F := Ideal) x2 h (ix2 p (rcol f)) = hop A X ⟨o + p.val, hb⟩ f := by
  rw [pay7_apply]; unfold hop
  exact Finset.sum_congr rfl fun k _ => by rw [hx2 p k hb, hr k f]

end Product

/-! ### The cache with a block stored -/

theorem adjB_cache (i : grid0.Coords) (x2 : Vec Ideal S512x4096 .f32) (xa : Vec Ideal S4096x4096 .bf16)
    (hx2 : ∀ (p : Fin 512) (k : Fin 4096) (hb : 512 * (i 0).val + p.val < 4096), (x2 (ix2 p k) : EReal) = A ⟨512 * (i 0).val + p.val, hb⟩ k)
    (hc : ∀ (r k : Fin 4096), r.val < 512 * (i 0).val → (xa (ix2 r k) : EReal) = A r k)
    (r k : Fin 4096) (hr : r.val < 512 * ((i 0).val + 1)) : (adjB i x2 xa (ix2 r k) : EReal) = A r k := by
  unfold adjB
  by_cases hin : 512 * (i 0).val ≤ r.val
  · refine (put2_in (F := Ideal) (512 * (i 0).val) 0 xa (k0_pay6 (F := Ideal) x2) r k ⟨hin, by omega⟩ ⟨Nat.zero_le _, by have := k.isLt; omega⟩).trans ?_
    rw [pay6_eq]
    have hb : 512 * (i 0).val + (r.val - 512 * (i 0).val) < 4096 := by have := r.isLt; omega
    refine (hx2 ⟨r.val - 512 * (i 0).val, by omega⟩ ⟨k.val - 0, by have := k.isLt; omega⟩ hb).trans ?_
    congr 1 <;> apply Fin.ext <;> simp <;> omega
  · refine (put2_out (F := Ideal) (512 * (i 0).val) 0 xa (k0_pay6 (F := Ideal) x2) r k (Or.inl (by omega))).trans ?_
    exact hc r k (by omega)

/-- Indices with equal coordinates are equal. -/
theorem ix2_congr {n0 n1 : ℕ} {a a' : Fin n0} {b b' : Fin n1} (ha : a.val = a'.val) (hb : b.val = b'.val) :
    (ix2 a b : (⟨2, ![n0, n1]⟩ : Shape).Idx) = ix2 a' b' := by rw [Fin.ext ha, Fin.ext hb]

/-! ### A middle point: the staged rows published, the column term added -/

theorem hxB_left (i : grid0.Coords) (hn1 : 1 ≤ (i 0).val) (xa : Vec Ideal S4096x4096 .bf16) (xh : Vec Ideal S4096x128 .bf16) (xs : Vec Ideal S512x64 .bf16)
    (hInv : Inv A X (i 0).val xa xh xs) (k : Fin 4096) (f : Fin 64) :
    (hxB i xh xs (ix2 k (lcol f)) : EReal) = if k.val < 512 * (i 0).val then hop A X k f else 0 := by
  unfold hxB
  have hk := k.isLt; have hf := f.isLt; have h8 := coord_lt i
  by_cases hin : 512 * ((i 0).val - 1) ≤ k.val ∧ k.val < 512 * ((i 0).val - 1) + 512
  · refine (put2_in (F := Ideal) (512 * ((i 0).val - 1)) 0 xh (k0_pay4 (F := Ideal) xs) k (lcol f) hin
      ⟨Nat.zero_le _, by show f.val < 0 + 64; omega⟩).trans ?_
    rw [pay4_eq, if_pos (by omega)]
    have hb : 512 * ((i 0).val - 1) + (k.val - 512 * ((i 0).val - 1)) < 4096 := by omega
    refine (hInv.staged hn1 ⟨k.val - 512 * ((i 0).val - 1), by omega⟩ ⟨(lcol f).val - 0, by show f.val - 0 < 64; omega⟩ hb).trans ?_
    exact congrArg₂ (hop A X) (Fin.ext (by show 512 * ((i 0).val - 1) + (k.val - 512 * ((i 0).val - 1)) = k.val; omega)) (Fin.ext rfl)
  · refine (put2_out (F := Ideal) (512 * ((i 0).val - 1)) 0 xh (k0_pay4 (F := Ideal) xs) k (lcol f) (Or.inl hin)).trans ?_
    rw [hInv.left hn1 k f]
    by_cases h1 : k.val < 512 * ((i 0).val - 1)
    · rw [if_pos h1, if_pos (by omega)]
    · rw [if_neg h1, if_neg (by omega)]

theorem hxB_right (i : grid0.Coords) (hn1 : 1 ≤ (i 0).val) (xa : Vec Ideal S4096x4096 .bf16) (xh : Vec Ideal S4096x128 .bf16) (xs : Vec Ideal S512x64 .bf16)
    (hInv : Inv A X (i 0).val xa xh xs) (k : Fin 4096) (f : Fin 64) : (hxB i xh xs (ix2 k (rcol f)) : EReal) = X k f := by
  unfold hxB
  refine (put2_out (F := Ideal) (512 * ((i 0).val - 1)) 0 xh (k0_pay4 (F := Ideal) xs) k (rcol f)
    (Or.inr (by show ¬(0 ≤ 64 + f.val ∧ 64 + f.val < 0 + 64); omega))).trans ?_
  exact hInv.right hn1 k f

theorem colsPrev_apply (i : grid0.Coords) (hn1 : 1 ≤ (i 0).val) (hc1 : cond1 i) (xa : Vec Ideal S4096x4096 .bf16) (r : Fin 4096) (j : Fin 512)
    (hb : 512 * ((i 0).val - 1) + j.val < 4096) :
    (colsPrev i hc1 xa (ix2 r j) : EReal) = xa (ix2 r ⟨512 * ((i 0).val - 1) + j.val, hb⟩) := by
  unfold colsPrev
  refine (box2_apply (F := Ideal) (k0_off1 i) 0 (512 * ((i 0).val - 1)) (k0_off1_pos i hn1) (k0_off1_inb i hc1) xa r j
    (by have := r.isLt; omega) hb).trans ?_
  exact congrArg xa (ix2_congr (Nat.zero_add _) rfl)

theorem outAcc_good (i : grid0.Coords) (hn1 : 1 ≤ (i 0).val) (hc1 : cond1 i) (x3 : Vec Ideal S4096x64 .f32) (xa : Vec Ideal S4096x4096 .bf16)
    (xh : Vec Ideal S4096x128 .bf16) (xs : Vec Ideal S512x64 .bf16) (hInv : Inv A X (i 0).val xa xh xs)
    (hprev : ∀ (r : Fin 4096) (f : Fin 64), r.val < 512 * (i 0).val → (x3 (ix2 r f) : EReal) = part A (hop A X) (512 * ((i 0).val - 1)) r f)
    (r : Fin 4096) (f : Fin 64) (hr : r.val < 512 * (i 0).val) :
    (outAcc i hc1 x3 xa xs (ix2 r f) : EReal) = part A (hop A X) (512 * (i 0).val) r f := by
  have h8 := coord_lt i
  unfold outAcc
  rw [pay3_apply, hprev r f hr]
  have hsum : (∑ j : Fin 512, (colsPrev i hc1 xa (ix2 r j) : EReal) * xs (ix2 j f))
      = ∑ j : Fin 512, A r ⟨512 * ((i 0).val - 1) + j.val, by have := j.isLt; omega⟩ * hop A X ⟨512 * ((i 0).val - 1) + j.val, by have := j.isLt; omega⟩ f :=
    Finset.sum_congr rfl fun j _ => by
      have hb : 512 * ((i 0).val - 1) + j.val < 4096 := by have := j.isLt; omega
      rw [colsPrev_apply i hn1 hc1 xa r j hb, hInv.cache r _ hr, hInv.staged hn1 j f hb]
  rw [hsum, part_add_block A (hop A X) r f (512 * ((i 0).val - 1)) 512 (by omega)]
  congr 1; omega

theorem outB_good (i : grid0.Coords) (hn1 : 1 ≤ (i 0).val) (hc1 : cond1 i) (x2 : Vec Ideal S512x4096 .f32) (x3 : Vec Ideal S4096x64 .f32)
    (xa : Vec Ideal S4096x4096 .bf16) (xh : Vec Ideal S4096x128 .bf16) (xs : Vec Ideal S512x64 .bf16) (hInv : Inv A X (i 0).val xa xh xs)
    (hx2 : ∀ (p : Fin 512) (k : Fin 4096) (hb : 512 * (i 0).val + p.val < 4096), (x2 (ix2 p k) : EReal) = A ⟨512 * (i 0).val + p.val, hb⟩ k)
    (hprev : ∀ (r : Fin 4096) (f : Fin 64), r.val < 512 * (i 0).val → (x3 (ix2 r f) : EReal) = part A (hop A X) (512 * ((i 0).val - 1)) r f)
    (r : Fin 4096) (f : Fin 64) (hr : r.val < 512 * ((i 0).val + 1)) :
    (outB i hc1 x2 x3 xa xh xs (ix2 r f) : EReal) = part A (hop A X) (512 * (i 0).val) r f := by
  unfold outB
  by_cases hin : 512 * (i 0).val ≤ r.val
  · refine (put2_in (F := Ideal) (e := .f32) (n0 := 512) (n1 := 64) (512 * (i 0).val) 0 (outAcc i hc1 x3 xa xs) (k0_pay8 (F := Ideal) x2 (hxB i xh xs)) r f ⟨hin, by omega⟩
      ⟨Nat.zero_le _, by have := f.isLt; omega⟩).trans ?_
    rw [pay8_apply]
    have hb : 512 * (i 0).val + (r.val - 512 * (i 0).val) < 4096 := by have := r.isLt; omega
    refine (prod_left A X x2 (hxB i xh xs) (512 * (i 0).val) hx2 (512 * (i 0).val) (hxB_left A X i hn1 xa xh xs hInv)
      ⟨r.val - 512 * (i 0).val, by omega⟩ ⟨f.val - 0, by have := f.isLt; omega⟩ hb).trans ?_
    exact congrArg₂ (part A (hop A X) (512 * (i 0).val)) (Fin.ext (by show 512 * (i 0).val + (r.val - 512 * (i 0).val) = r.val; omega)) (Fin.ext rfl)
  · refine (put2_out (F := Ideal) (e := .f32) (n0 := 512) (n1 := 64) (512 * (i 0).val) 0 (outAcc i hc1 x3 xa xs) (k0_pay8 (F := Ideal) x2 (hxB i xh xs)) r f (Or.inl (by omega))).trans ?_
    exact outAcc_good A X i hn1 hc1 x3 xa xh xs hInv hprev r f (by omega)

theorem h1sB_staged (i : grid0.Coords) (hn1 : 1 ≤ (i 0).val) (x2 : Vec Ideal S512x4096 .f32)
    (xa : Vec Ideal S4096x4096 .bf16) (xh : Vec Ideal S4096x128 .bf16) (xs : Vec Ideal S512x64 .bf16) (hInv : Inv A X (i 0).val xa xh xs)
    (hx2 : ∀ (p : Fin 512) (k : Fin 4096) (hb : 512 * (i 0).val + p.val < 4096), (x2 (ix2 p k) : EReal) = A ⟨512 * (i 0).val + p.val, hb⟩ k) (p : Fin 512) (f : Fin 64) (hb : 512 * (i 0).val + p.val < 4096) :
    (h1sB i x2 xh xs (ix2 p f) : EReal) = hop A X ⟨512 * (i 0).val + p.val, hb⟩ f := by
  unfold h1sB; rw [pay9_apply]
  exact prod_right A X x2 (hxB i xh xs) (512 * (i 0).val) hx2 (hxB_right A X i hn1 xa xh xs hInv) p f hb

/-- The invariant after a point from `n = 1` on. -/
theorem Inv.step (i : grid0.Coords) (hn1 : 1 ≤ (i 0).val) (x2 : Vec Ideal S512x4096 .f32)
    (xa : Vec Ideal S4096x4096 .bf16) (xh : Vec Ideal S4096x128 .bf16) (xs : Vec Ideal S512x64 .bf16) (hInv : Inv A X (i 0).val xa xh xs)
    (hx2 : ∀ (p : Fin 512) (k : Fin 4096) (hb : 512 * (i 0).val + p.val < 4096), (x2 (ix2 p k) : EReal) = A ⟨512 * (i 0).val + p.val, hb⟩ k) : Inv A X ((i 0).val + 1) (adjB i x2 xa) (hxB i xh xs) (h1sB i x2 xh xs) where
  cache r k hr := adjB_cache A i x2 xa hx2 hInv.cache r k hr
  right _ k f := hxB_right A X i hn1 xa xh xs hInv k f
  left _ k f := hxB_left A X i hn1 xa xh xs hInv k f
  staged _ p f h := h1sB_staged A X i hn1 x2 xa xh xs hInv hx2 p f h

/-- The output after a middle point. -/
theorem Good.step (i : grid0.Coords) (hn1 : 1 ≤ (i 0).val) (hn7 : (i 0).val ≠ 7) (hc1 : cond1 i) (x2 : Vec Ideal S512x4096 .f32) (x3 : Vec Ideal S4096x64 .f32)
    (xa : Vec Ideal S4096x4096 .bf16) (xh : Vec Ideal S4096x128 .bf16) (xs : Vec Ideal S512x64 .bf16) (hInv : Inv A X (i 0).val xa xh xs)
    (hx2 : ∀ (p : Fin 512) (k : Fin 4096) (hb : 512 * (i 0).val + p.val < 4096), (x2 (ix2 p k) : EReal) = A ⟨512 * (i 0).val + p.val, hb⟩ k)
    (hprev : ∀ (r : Fin 4096) (f : Fin 64), r.val < 512 * (i 0).val → (x3 (ix2 r f) : EReal) = part A (hop A X) (512 * ((i 0).val - 1)) r f) :
    Good A X (i 0).val (outB i hc1 x2 x3 xa xh xs) := fun r f hr => by
  rw [if_neg hn7]; exact outB_good A X i hn1 hc1 x2 x3 xa xh xs hInv hx2 hprev r f hr

/-! ### The last point: the last column term added to every row -/

theorem Good.last (i : grid0.Coords) (h7 : (i 0).val = 7) (hc1 : cond1 i) (x2 : Vec Ideal S512x4096 .f32) (x3 : Vec Ideal S4096x64 .f32)
    (xa : Vec Ideal S4096x4096 .bf16) (xh : Vec Ideal S4096x128 .bf16) (xs : Vec Ideal S512x64 .bf16) (hInv : Inv A X (i 0).val xa xh xs)
    (hx2 : ∀ (p : Fin 512) (k : Fin 4096) (hb : 512 * (i 0).val + p.val < 4096), (x2 (ix2 p k) : EReal) = A ⟨512 * (i 0).val + p.val, hb⟩ k)
    (hprev : ∀ (r : Fin 4096) (f : Fin 64), r.val < 512 * (i 0).val → (x3 (ix2 r f) : EReal) = part A (hop A X) (512 * ((i 0).val - 1)) r f) :
    Good A X (i 0).val (outC i hc1 x2 x3 xa xh xs) := fun r f _ => by
  have hn1 : 1 ≤ (i 0).val := by omega
  have hr := r.isLt
  rw [if_pos h7]
  unfold outC
  rw [pay10_apply, outB_good A X i hn1 hc1 x2 x3 xa xh xs hInv hx2 hprev r f (by omega)]
  have hsum : (∑ j : Fin 512, (colsLast i x2 xa (ix2 r j) : EReal) * k0_pay7 (F := Ideal) x2 (hxB i xh xs) (ix2 j (rcol f)))
      = ∑ j : Fin 512, A r ⟨512 * (i 0).val + j.val, by have := j.isLt; omega⟩ * hop A X ⟨512 * (i 0).val + j.val, by have := j.isLt; omega⟩ f :=
    Finset.sum_congr rfl fun j _ => by
      have hb : 512 * (i 0).val + j.val < 4096 := by have := j.isLt; omega
      have hb' : 3584 + j.val < 4096 := by have := j.isLt; omega
      rw [prod_right A X x2 (hxB i xh xs) (512 * (i 0).val) hx2 (hxB_right A X i hn1 xa xh xs hInv) j f hb]
      congr 1
      unfold colsLast
      refine (box2_apply (F := Ideal) ![0, 3584] 0 3584 rfl inb_S4096x4096_S4096x512_0_3584 (adjB i x2 xa) r j (by omega) hb').trans ?_
      refine (adjB_cache A i x2 xa hx2 hInv.cache _ _ (by show 0 + r.val < 512 * ((i 0).val + 1); omega)).trans ?_
      exact congrArg₂ A (Fin.ext (Nat.zero_add _)) (Fin.ext (by show 3584 + j.val = 512 * (i 0).val + j.val; omega))
  rw [hsum, part_add_block A (hop A X) r f (512 * (i 0).val) 512 (by omega)]
  congr 1; omega

/-! ### The first point: the wide operand set, nothing added -/

theorem hxInit_left (xh : Vec Ideal S4096x128 .bf16) (x1 : Vec Ideal S4096x64 .bf16) (k : Fin 4096) (f : Fin 64) :
    (hxInit xh x1 (ix2 k (lcol f)) : EReal) = 0 := by
  have hk := k.isLt; have hf := f.isLt
  unfold hxInit
  refine (put2_out (F := Ideal) (e := .bf16) (R := 4096) (C := 128) (n0 := 4096) (n1 := 64) 0 64 _ (k0_pay2 (F := Ideal) x1) k (lcol f)
    (Or.inr (by show ¬(64 ≤ f.val ∧ f.val < 64 + 64); omega))).trans ?_
  refine (put2_in (F := Ideal) 0 0 xh (k0_pay1 (F := Ideal)) k (lcol f) ⟨Nat.zero_le _, by omega⟩
    ⟨Nat.zero_le _, by show f.val < 0 + 64; omega⟩).trans ?_
  exact pay1_apply _

theorem hxInit_right (xh : Vec Ideal S4096x128 .bf16) (x1 : Vec Ideal S4096x64 .bf16)
    (hx1 : ∀ (k : Fin 4096) (f : Fin 64), (x1 (ix2 k f) : EReal) = X k f) (k : Fin 4096) (f : Fin 64) :
    (hxInit xh x1 (ix2 k (rcol f)) : EReal) = X k f := by
  have hk := k.isLt; have hf := f.isLt
  unfold hxInit
  refine (put2_in (F := Ideal) (e := .bf16) (R := 4096) (C := 128) (n0 := 4096) (n1 := 64) 0 64 _ (k0_pay2 (F := Ideal) x1) k (rcol f) ⟨Nat.zero_le _, by omega⟩
    ⟨by show 64 ≤ 64 + f.val; omega, by show 64 + f.val < 64 + 64; omega⟩).trans ?_
  rw [pay2_eq]
  exact (congrArg x1 (ix2_congr rfl (by show 64 + f.val - 64 = f.val; omega))).trans (hx1 k f)

theorem Good.first (i : grid0.Coords) (h0 : (i 0).val = 0) (x1 : Vec Ideal S4096x64 .bf16) (x2 : Vec Ideal S512x4096 .f32) (x3 : Vec Ideal S4096x64 .f32)
    (xh : Vec Ideal S4096x128 .bf16) (hx2 : ∀ (p : Fin 512) (k : Fin 4096) (hb : 512 * (i 0).val + p.val < 4096), (x2 (ix2 p k) : EReal) = A ⟨512 * (i 0).val + p.val, hb⟩ k) : Good A X (i 0).val (outA i x1 x2 x3 xh) := fun r f hr => by
  have hf := f.isLt
  rw [if_neg (by omega)]
  unfold outA
  refine (put2_in (F := Ideal) (512 * (i 0).val) 0 x3 (k0_pay8 (F := Ideal) x2 (hxInit xh x1)) r f ⟨by omega, by omega⟩
    ⟨Nat.zero_le _, by omega⟩).trans ?_
  rw [pay8_apply]
  have hb : 512 * (i 0).val + (r.val - 512 * (i 0).val) < 4096 := by omega
  refine (prod_left A X x2 (hxInit xh x1) (512 * (i 0).val) hx2 0
    (fun k f => by rw [hxInit_left, if_neg (Nat.not_lt_zero _)]) ⟨r.val - 512 * (i 0).val, by omega⟩ ⟨f.val - 0, by omega⟩ hb).trans ?_
  rw [part_zero, h0, Nat.mul_zero, part_zero]

theorem Inv.first (i : grid0.Coords) (h0 : (i 0).val = 0) (x1 : Vec Ideal S4096x64 .bf16) (x2 : Vec Ideal S512x4096 .f32)
    (xa : Vec Ideal S4096x4096 .bf16) (xh : Vec Ideal S4096x128 .bf16)
    (hx1 : ∀ (k : Fin 4096) (f : Fin 64), (x1 (ix2 k f) : EReal) = X k f) (hx2 : ∀ (p : Fin 512) (k : Fin 4096) (hb : 512 * (i 0).val + p.val < 4096), (x2 (ix2 p k) : EReal) = A ⟨512 * (i 0).val + p.val, hb⟩ k) :
    Inv A X ((i 0).val + 1) (adjB i x2 xa) (hxInit xh x1) (h1sA x1 x2 xh) where
  cache r k hr := adjB_cache A i x2 xa hx2 (fun r k h => absurd h (by omega)) r k hr
  right _ k f := hxInit_right X xh x1 hx1 k f
  left _ k f := by rw [hxInit_left, if_neg (by omega)]
  staged _ p f h := by
    unfold h1sA; rw [pay9_apply]
    have hb : 512 * (i 0).val + p.val < 4096 := by have := p.isLt; omega
    refine (prod_right A X x2 (hxInit xh x1) (512 * (i 0).val) hx2 (hxInit_right X xh x1 hx1) p f hb).trans ?_
    exact congrArg (fun a => hop A X a f) (Fin.ext (by show 512 * (i 0).val + p.val = 512 * ((i 0).val + 1 - 1) + p.val; omega))

end Sweep

end Cert.KernelIdeal.Body

end
-- ==== Proof.ValueRun.lean ====
import proofs.«107282_g65807488909795_cont_9to1_m_465_25_alg».proof.Proof.Steps
import proofs.«107282_g65807488909795_cont_9to1_m_465_25_alg».proof.Proof.FrameRun
import Idealize.ShloMosaic.Lib.StableHlo.Run

set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.TwoHops Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The arrays the region finds, and the windows' blocks of them -/

/-- The matrix, and the features as the host's format change leaves them (the identity here), entry by entry. -/
def Amat (c : Dev nD) (r k : Fin 4096) : EReal := V m c main_arg1 (ix2 r k)
def Xmat (c : Dev nD) (k : Fin 4096) (f : Fin 64) : EReal := V m c main_call0_v0 (ix2 k f)

/-- The index maps over the grid: the features' and the output's block is the whole array at every point, the
    matrix's block at point `t` is its rows `512 t …`; and the one grid coordinate of point `t` is `t`. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 ∧ (grid0.coords t 0).val = t.val :=
  (by decide +kernel : ∀ t : Fin grid0.N, _)

theorem blk0_apply (c : Dev nD) (t : Fin cfg0.N) (k : Fin 4096) (f : Fin 64) : (iblk m c 0 t (ix2 k f) : EReal) = Xmat m c k f := by
  obtain ⟨e0, e1, -⟩ := idx_facts t
  show V m c main_call0_v0 (((cfg0.win 0).blk t).view.emb (ix2 k f)) = V m c main_call0_v0 (ix2 k f)
  congr 1; funext a; apply Fin.ext
  match a with
  | ⟨0, _⟩ => show win0_0.index t (0 : Fin 2) * 4096 + 1 * k.val = k.val; omega
  | ⟨1, _⟩ => show win0_0.index t (1 : Fin 2) * 64 + 1 * f.val = f.val; omega

theorem blk1_apply (c : Dev nD) (t : Fin cfg0.N) (p : Fin 512) (k : Fin 4096) (hb : 512 * (grid0.coords t 0).val + p.val < 4096) :
    (iblk m c 1 t (ix2 p k) : EReal) = Amat m c ⟨512 * (grid0.coords t 0).val + p.val, hb⟩ k := by
  obtain ⟨-, -, e2, e3, -, -, e6⟩ := idx_facts t
  show V m c main_arg1 (((cfg0.win 1).blk t).view.emb (ix2 p k)) = V m c main_arg1 (ix2 ⟨512 * (grid0.coords t 0).val + p.val, hb⟩ k)
  congr 1; funext a; apply Fin.ext
  match a with
  | ⟨0, _⟩ => show win0_1.index t (0 : Fin 2) * 512 + 1 * p.val = 512 * (grid0.coords t 0).val + p.val; omega
  | ⟨1, _⟩ => show win0_1.index t (1 : Fin 2) * 4096 + 1 * k.val = k.val; omega

/-! ## The proof data

The arrays as the region finds them; an input's staging buffer is left as found; the output's staging buffer, after
point `t`, holds on its rows below `512 (t + 1)` the second hop summed over the columns below `512 t` (over every
column after the last point) — of its other rows nothing is said; the invariant holds the three scratch buffers at
contents the sweep's invariant holds of. -/

def rdV (c : Dev nD) : RDat τ (Elt Ideal) Unit ℕ (UR sig nD τ) ℕ cfg0 c where
  A w := V m c (Pipeline.arrRef spec0 w)
  after w t Y X := match w, Y, X with
    | ⟨0, _⟩, Y, X => X = Y
    | ⟨1, _⟩, Y, X => X = Y
    | ⟨2, _⟩, _, X => Good (Amat m c) (Xmat m c) t.val X
  Φ t := iprop(∃ xa, ∃ xh, ∃ xs, ⌜Inv (Amat m c) (Xmat m c) t.val xa xh xs⌝ ∗ owns (c : Thread nD τ) scM0 fullShare xa
    ∗ owns (c : Thread nD τ) scM1 fullShare xh ∗ owns (c : Thread nD τ) scM2 fullShare xs ∗ (∃ r, prngReg c r))
  q _ := fullShare
  owed _ := 0

/-- An input's staging buffer holds its block wherever the body is handed it. -/
theorem finds0 (c : Dev nD) (t : Fin cfg0.N) (Y) (h : (rdV m c).Finds 0 t Y) : Y = iblk m c 0 t := by
  obtain ⟨d, rfl⟩ := Pipeline.RDat.finds_in_eq_fetched (rdV m c) 0 rfl (fun _ _ _ => rfl) (fun _ _ _ h => h) t Y h
  unfold RDat.fetched RDat.blockOf iblk; rfl
theorem finds1 (c : Dev nD) (t : Fin cfg0.N) (Y) (h : (rdV m c).Finds 1 t Y) : Y = iblk m c 1 t := by
  obtain ⟨d, rfl⟩ := Pipeline.RDat.finds_in_eq_fetched (rdV m c) 1 rfl (fun _ _ _ => rfl) (fun _ _ _ h => h) t Y h
  unfold RDat.fetched RDat.blockOf iblk; rfl

/-- The output window is never fetched. -/
theorem fetch0_2 : ∀ t : Fin cfg0.N, (cfg0.win 2).fetch t = false :=
  (by decide +kernel : ∀ t : Fin grid0.N, win0_2.fetch t = false)

/-- After the first point the output's staging buffer holds what the point before left. -/
theorem finds2 (c : Dev nD) (t : Fin cfg0.N) (ht : t.val ≠ 0) (Y) (h : (rdV m c).Finds 2 t Y) :
    Good (Amat m c) (Xmat m c) (t.val - 1) Y := by
  rcases ((rdV m c).finds_of_pos (fetch0_2 t) ht Y).mp h with hfl | ⟨Y', -, hR⟩
  · have := (flush0_2 _).mp hfl
    have hN : t.val < 8 := lt_of_lt_of_eq t.isLt N_0
    simp only at this
    omega
  · exact hR

/-! ## The body obligation -/

set_option maxHeartbeats 3200000 in
theorem obligationV (c : Dev nD) : (rdV m c).BodyObligation (defs₀ (F := Ideal)) Variants.none () Set.univ := fun t Y hY => by
  have hY0 := finds0 m c t (Y 0) (hY 0)
  have hY1 := finds1 m c t (Y 1) (hY 1)
  obtain ⟨-, -, -, -, -, -, et⟩ := idx_facts t
  have h8 := coord_lt (grid0.coords t)
  have hx1 : ∀ (k : Fin 4096) (f : Fin 64), ((Y 0) (ix2 k f) : EReal) = Xmat m c k f := fun k f => by
    rw [hY0]; exact blk0_apply m c t k f
  have hx2 : ∀ (p : Fin 512) (k : Fin 4096) (hb : 512 * ((grid0.coords t) 0).val + p.val < 4096),
      ((Y 1) (ix2 p k) : EReal) = Amat m c ⟨512 * ((grid0.coords t) 0).val + p.val, hb⟩ k := fun p k hb => by
    rw [hY1]; exact blk1_apply m c t p k hb
  rw [bigSep_W0, bigSep_W0]
  show iprop(iprop(∃ xa, ∃ xh, ∃ xs, ⌜Inv (Amat m c) (Xmat m c) t.val xa xh xs⌝ ∗ owns (c : Thread nD τ) scM0 fullShare xa
          ∗ owns (c : Thread nD τ) scM1 fullShare xh ∗ owns (c : Thread nD τ) scM2 fullShare xs ∗ (∃ r, prngReg c r))
        ∗ (rdV m c).owesAt () t.castSucc
        ∗ owns (c : Thread nD τ) (ms0 t) fullShare (Y 0) ∗ owns (c : Thread nD τ) (ms1 t) fullShare (Y 1) ∗ owns (c : Thread nD τ) (ms2 t) fullShare (Y 2))
      ⊢ wp frame (wpE (defs₀ (F := Ideal)) Variants.none c none) Set.univ (bodyAt0 t) (fun _ =>
        iprop(iprop(∃ xa, ∃ xh, ∃ xs, ⌜Inv (Amat m c) (Xmat m c) (t.val + 1) xa xh xs⌝ ∗ owns (c : Thread nD τ) scM0 fullShare xa
          ∗ owns (c : Thread nD τ) scM1 fullShare xh ∗ owns (c : Thread nD τ) scM2 fullShare xs ∗ (∃ r, prngReg c r))
          ∗ (rdV m c).owesAt () t.castSucc
          ∗ (∃ X, ⌜X = Y 0⌝ ∗ owns (c : Thread nD τ) (ms0 t) fullShare X) ∗ (∃ X, ⌜X = Y 1⌝ ∗ owns (c : Thread nD τ) (ms1 t) fullShare X)
          ∗ (∃ X, ⌜Good (Amat m c) (Xmat m c) t.val X⌝ ∗ owns (c : Thread nD τ) (ms2 t) fullShare X)))
  unfold bodyAt0
  iintro ⟨⟨%xa, %xh, %xs, %hInv, Ha, Hh, Hs, Hg⟩, Ho, H0, H1, H2⟩
  rw [← et] at hInv
  by_cases hz : ((grid0.coords t) 0).val = 0
  · have hc0 : cond0 (grid0.coords t) := (hcond0 _).mpr hz
    have hc1 : ¬cond1 (grid0.coords t) := fun h => by have := (hcond1 _).mp h; omega
    have hc2 : ¬cond2 (grid0.coords t) := fun h => by have := (hcond2 _).mp h; omega
    iapply (sound_A c (grid0.coords t) (ms0 t) (hs0 t) (ms1 t) (hs1 t) (ms2 t) (hs2 t) scM0 (Memref.isWhole_whole _) scM1 (Memref.isWhole_whole _) scM2 (Memref.isWhole_whole _) hc0 hc1 hc2 (Y 0) (Y 1) (Y 2) xa xh xs Set.univ _)
    isplitl [H0]; · iexact H0
    isplitl [H1]; · iexact H1
    isplitl [H2]; · iexact H2
    isplitl [Ha]; · iexact Ha
    isplitl [Hh]; · iexact Hh
    isplitl [Hs]; · iexact Hs
    iintro ⟨H0, H1, H2, Ha, Hh, Hs⟩
    isplitl [Ha Hh Hs Hg]
    · iexists (adjB (grid0.coords t) (Y 1) xa); iexists (hxInit xh (Y 0)); iexists (h1sA (Y 0) (Y 1) xh)
      isplitr
      · ipureintro; rw [← et]; exact Inv.first (Amat m c) (Xmat m c) (grid0.coords t) hz (Y 0) (Y 1) xa xh hx1 hx2
      isplitl [Ha]; · iexact Ha
      isplitl [Hh]; · iexact Hh
      isplitl [Hs]; · iexact Hs
      iexact Hg
    isplitl [Ho]; · iexact Ho
    isplitl [H0]
    · iexists _; isplitr; · ipureintro; rfl
      iexact H0
    isplitl [H1]
    · iexists _; isplitr; · ipureintro; rfl
      iexact H1
    · iexists (outA (grid0.coords t) (Y 0) (Y 1) (Y 2) xh); isplitr
      · ipureintro; rw [← et]; exact Good.first (Amat m c) (Xmat m c) (grid0.coords t) hz (Y 0) (Y 1) (Y 2) xh hx2
      iexact H2
  · have hn1 : 1 ≤ ((grid0.coords t) 0).val := by omega
    have hc0 : ¬cond0 (grid0.coords t) := fun h => hz ((hcond0 _).mp h)
    have hc1 : cond1 (grid0.coords t) := (hcond1 _).mpr hn1
    have hG := finds2 m c t (by omega) (Y 2) (hY 2)
    have hprev : ∀ (r : Fin 4096) (f : Fin 64), r.val < 512 * ((grid0.coords t) 0).val →
        ((Y 2) (ix2 r f) : EReal) = part (Amat m c) (hop (Amat m c) (Xmat m c)) (512 * (((grid0.coords t) 0).val - 1)) r f := fun r f hr => by
      have := hG r f (by omega)
      rw [if_neg (by omega)] at this
      rw [et]; exact this
    by_cases h7 : ((grid0.coords t) 0).val = 7
    · have hc2 : cond2 (grid0.coords t) := (hcond2 _).mpr h7
      iapply (sound_C c (grid0.coords t) (ms0 t) (hs0 t) (ms1 t) (hs1 t) (ms2 t) (hs2 t) scM0 (Memref.isWhole_whole _) scM1 (Memref.isWhole_whole _) scM2 (Memref.isWhole_whole _) hc0 hc1 hc2 (Y 0) (Y 1) (Y 2) xa xh xs Set.univ _)
      isplitl [H0]; · iexact H0
      isplitl [H1]; · iexact H1
      isplitl [H2]; · iexact H2
      isplitl [Ha]; · iexact Ha
      isplitl [Hh]; · iexact Hh
      isplitl [Hs]; · iexact Hs
      iintro ⟨H0, H1, H2, Ha, Hh, Hs⟩
      isplitl [Ha Hh Hs Hg]
      · iexists (adjB (grid0.coords t) (Y 1) xa); iexists (hxB (grid0.coords t) xh xs); iexists (h1sB (grid0.coords t) (Y 1) xh xs)
        isplitr
        · ipureintro; rw [← et]; exact Inv.step (Amat m c) (Xmat m c) (grid0.coords t) hn1 (Y 1) xa xh xs hInv hx2
        isplitl [Ha]; · iexact Ha
        isplitl [Hh]; · iexact Hh
        isplitl [Hs]; · iexact Hs
        iexact Hg
      isplitl [Ho]; · iexact Ho
      isplitl [H0]
      · iexists _; isplitr; · ipureintro; rfl
        iexact H0
      isplitl [H1]
      · iexists _; isplitr; · ipureintro; rfl
        iexact H1
      · iexists (outC (grid0.coords t) hc1 (Y 1) (Y 2) xa xh xs); isplitr
        · ipureintro; rw [← et]; exact Good.last (Amat m c) (Xmat m c) (grid0.coords t) h7 hc1 (Y 1) (Y 2) xa xh xs hInv hx2 hprev
        iexact H2
    · have hc2 : ¬cond2 (grid0.coords t) := fun h => h7 ((hcond2 _).mp h)
      iapply (sound_B c (grid0.coords t) (ms0 t) (hs0 t) (ms1 t) (hs1 t) (ms2 t) (hs2 t) scM0 (Memref.isWhole_whole _) scM1 (Memref.isWhole_whole _) scM2 (Memref.isWhole_whole _) hc0 hc1 hc2 (Y 0) (Y 1) (Y 2) xa xh xs Set.univ _)
      isplitl [H0]; · iexact H0
      isplitl [H1]; · iexact H1
      isplitl [H2]; · iexact H2
      isplitl [Ha]; · iexact Ha
      isplitl [Hh]; · iexact Hh
      isplitl [Hs]; · iexact Hs
      iintro ⟨H0, H1, H2, Ha, Hh, Hs⟩
      isplitl [Ha Hh Hs Hg]
      · iexists (adjB (grid0.coords t) (Y 1) xa); iexists (hxB (grid0.coords t) xh xs); iexists (h1sB (grid0.coords t) (Y 1) xh xs)
        isplitr
        · ipureintro; rw [← et]; exact Inv.step (Amat m c) (Xmat m c) (grid0.coords t) hn1 (Y 1) xa xh xs hInv hx2
        isplitl [Ha]; · iexact Ha
        isplitl [Hh]; · iexact Hh
        isplitl [Hs]; · iexact Hs
        iexact Hg
      isplitl [Ho]; · iexact Ho
      isplitl [H0]
      · iexists _; isplitr; · ipureintro; rfl
        iexact H0
      isplitl [H1]
      · iexists _; isplitr; · ipureintro; rfl
        iexact H1
      · iexists (outB (grid0.coords t) hc1 (Y 1) (Y 2) xa xh xs); isplitr
        · ipureintro; rw [← et]; exact Good.step (Amat m c) (Xmat m c) (grid0.coords t) hn1 h7 hc1 (Y 1) (Y 2) xa xh xs hInv hx2 hprev
        iexact H2

/-! ## The run -/

/-- Before the first point the scratch buffers hold anything, and the invariant asks nothing of them. -/
theorem hinV (c : Dev nD) : Pipeline.ΦA spec0 c ⊢ (rdV m c).Φ 0 := by
  show _ ⊢ iprop(∃ xa, ∃ xh, ∃ xs, ⌜Inv (Amat m c) (Xmat m c) 0 xa xh xs⌝ ∗ owns (c : Thread nD τ) scM0 fullShare xa
          ∗ owns (c : Thread nD τ) scM1 fullShare xh ∗ owns (c : Thread nD τ) scM2 fullShare xs ∗ (∃ r, prngReg c r))
  rw [PhiA_eq]
  iintro ⟨⟨⟨%xa, Ha⟩, ⟨%xh, Hh⟩, ⟨%xs, Hs⟩⟩, Hg⟩
  iexists xa; iexists xh; iexists xs
  isplitr; · ipureintro; exact Inv.zero _ _ xa xh xs
  isplitl [Ha]; · iexact Ha
  isplitl [Hh]; · iexact Hh
  isplitl [Hs]; · iexact Hs
  iexact Hg

/-- After the last point what they hold is forgotten. -/
theorem houtV (c : Dev nD) : (rdV m c).Φ (Fin.last cfg0.N) ⊢ Pipeline.ΦA spec0 c := by
  show iprop(∃ xa, ∃ xh, ∃ xs, ⌜Inv (Amat m c) (Xmat m c) (Fin.last cfg0.N).val xa xh xs⌝ ∗ owns (c : Thread nD τ) scM0 fullShare xa
          ∗ owns (c : Thread nD τ) scM1 fullShare xh ∗ owns (c : Thread nD τ) scM2 fullShare xs ∗ (∃ r, prngReg c r)) ⊢ _
  rw [PhiA_eq]
  iintro ⟨%xa, %xh, %xs, -, Ha, Hh, Hs, Hg⟩
  isplitr [Hg]
  · isplitl [Ha]; · iexists _; iexact Ha
    isplitl [Hh]; · iexists _; iexact Hh
    iexists _; iexact Hs
  · iexact Hg

set_option backward.isDefEq.respectTransparency.types false in
/-- Every weakly fair execution of @main terminates without a fault, every array of the region at some contents the
    proof data allows after every write-back, every other unscoped buffer as the region found it. -/
theorem run_value : θ_run defs (onTc (τ := τ) (main (F := Ideal))) (s₀ m ρ) (RDat.FramePost cfg0 (rdV m) (V m)) :=
  Pipeline.RDat.θ_run_frame_track cfgs (0 : Fin 1) launch0 defs₀ Variants.none (rdV m) m ρ main
    (hbody := obligationV m) (hshare := fun c => (rdV m c).share_full fun _ => rfl)
    (howed := fun _ _ => rfl) (V := V m) (hmain := hmain m Variants.none) (hA := fun _ _ => rfl) (hin := hinV m) (hout := houtV m)

/-! ## The output array after the run

It is written back once, after the last point, whole: every entry is then the second hop over every column. -/

def Gout (c : Dev nD) : S4096x64.Idx → EReal := fun y => part (Amat m c) (hop (Amat m c) (Xmat m c)) 4096 (y 0) (y 1)

theorem final_out (c : Dev nD) (G : Buf (Elt Ideal) ((c.tc : Thread nD τ).loc main_v0))
    (h : (rdV m c).ArrAt 2 cfg0.N G) : G = Gout m c := by
  have h' : (rdV m c).ArrAt 2 (t0_7.val + 1) G := h
  rw [Pipeline.RDat.ArrAt_succ, if_pos ((flush0_2 t0_7).mpr (by decide))] at h'
  obtain ⟨G₀, Xl, -, ⟨Y', -, hGood⟩, rfl⟩ := h'
  have hGood' : Good (Amat m c) (Xmat m c) 7 Xl := hGood
  obtain ⟨-, -, -, -, e4, e5, -⟩ := idx_facts t0_7
  refine funext fun (y : S4096x64.Idx) => ?_
  have hy0 : (y 0).val < 4096 := (y 0).isLt
  have hy : ((cfg0.win 2).blk t0_7).view.emb y = y := by
    funext a; apply Fin.ext
    match a with
    | ⟨0, _⟩ => show win0_2.index t0_7 (0 : Fin 2) * 4096 + 1 * (y 0).val = (y 0).val; omega
    | ⟨1, _⟩ => show win0_2.index t0_7 (1 : Fin 2) * 64 + 1 * (y 1).val = (y 1).val; omega
  have hw := View.write_emb_of_mem (Val := Elt Ideal) (v := ((cfg0.win 2).blk t0_7).view) G₀
    ((cfg0.win 2).cut (grid0.coords t0_7) Xl) (M := Finset.univ) (x := y) (Finset.mem_univ y)
  rw [hy] at hw
  refine hw.trans ?_
  have := hGood' (y 0) (y 1) (by omega)
  rw [if_pos rfl] at this
  show Xl y = Gout m c y
  rw [eq_ix2 y]
  exact this

/-! ## The run, read at the arguments -/

/-- The features' array the region finds is the host's format change of the argument: the argument itself here. -/
theorem V_call0 (c : Dev nD) (Xf : FVec Ideal S4096x64 .f32) (hX : Xf = m ((c.tc : Thread nD τ).loc main_arg0)) (y : S4096x64.Idx) :
    (V m c main_call0_v0 y : EReal) = Xf y := by
  have e : V m c main_call0_v0 = (truncf .bf16 Xf bitsLt_bf16_f32 : FVec Ideal S4096x64 .bf16) := by
    subst hX
    dsimp only [V, hostOps0]; after_results; rfl
  rw [e]; rfl

/-- The output array's entry in terms of the two arguments. -/
theorem Gout_apply (c : Dev nD) (Af : FVec Ideal S4096x4096 .f32) (Xf : FVec Ideal S4096x64 .f32)
    (hA : Af = m ((c.tc : Thread nD τ).loc main_arg1)) (hX : Xf = m ((c.tc : Thread nD τ).loc main_arg0)) (r : Fin 4096) (f : Fin 64) :
    Gout m c (ix2 r f) = ∑ k : Fin 4096, (Af (ix2 r k) : EReal) * ∑ j : Fin 4096, (Af (ix2 k j) : EReal) * Xf (ix2 j f) := by
  have hAm : ∀ (a b : Fin 4096), Amat m c a b = Af (ix2 a b) := fun a b => by
    unfold Amat; rw [V_main_arg1, ← hA]
  unfold Gout
  show part (Amat m c) (hop (Amat m c) (Xmat m c)) 4096 r f = _
  rw [part_full _ _ _ _ (le_refl _)]
  refine Finset.sum_congr rfl fun k _ => ?_
  rw [hAm]
  refine congrArg _ (Finset.sum_congr rfl fun j _ => ?_)
  rw [hAm]; unfold Xmat; rw [V_call0 m c Xf hX]

/-- The run with the output array named and the arguments unchanged. -/
theorem run_out : θ_run defs (onTc (τ := τ) (main (F := Ideal))) ⟨m, fun _ => 0, ρ⟩ (fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨final_out m c _ ((h c).1 2),
      ((h c).2 main_arg0 (Pipeline.mem_restRefs_of main_arg0 (by decide) (by decide))).trans (V_main_arg0 m c),
      (by
        have h1 := (h c).1 1
        rw [Pipeline.RDat.ArrAt_in (rdV m c) 1 rfl] at h1
        exact h1.trans (V_main_arg1 m c))⟩) (run_value m ρ)

end Cert.KernelIdeal.Body

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.RefValue.lean ====
import proofs.«107282_g65807488909795_cont_9to1_m_465_25_alg».proof.Proof.Gen.ReferenceIdeal.Run
import proofs.«107282_g65807488909795_cont_9to1_m_465_25_alg».proof.Proof.LibDotsNT
import Idealize.ShloMosaic.Lib.ValueIdx

noncomputable section

open scoped BigOperators

/-! ## The reference at an entry

Its result is the matrix times (the matrix times the features), two host products with the plain dimension numbers:
at entry (r, f), the sum over k of `A r k` times the sum over j of `A k j * X j f`. -/

namespace Cert.ReferenceIdeal.RefValue

open Cert.ReferenceIdeal Cert.ReferenceIdeal.Gen
open Idealize.ShloMosaic Idealize.ShloMosaic.ValueIdx

theorem two_dots (Af : FVec Ideal S4096x4096 .f32) (Xf : FVec Ideal S4096x64 .f32) (r : Fin 4096) (f : Fin 64) :
    Host.dotGeneral dot_S4096x4096_S4096x64_S4096x64_1_0_0_1_n_n none Af
        (Host.dotGeneral dot_S4096x4096_S4096x64_S4096x64_1_0_0_1_n_n none Af Xf) (ix2 r f)
      = ∑ k : Fin 4096, (Af (ix2 r k) : EReal) * ∑ j : Fin 4096, (Af (ix2 k j) : EReal) * Xf (ix2 j f) := by
  simp only [Host.dotGeneral]
  rw [Cert.LibDotsNT.plain_dotGeneral_apply _ rfl rfl rfl rfl rfl rfl]
  refine Finset.sum_congr rfl fun k _ => ?_
  rw [Cert.LibDotsNT.plain_dotGeneral_apply _ rfl rfl rfl rfl rfl rfl]

end Cert.ReferenceIdeal.RefValue

end
-- ==== Proof.lean ====
/-
  Two hops of a dense matrix: `out = A (A x)` for a 4096 × 4096 matrix `A` and 4096 × 64 features `x`.

  The kernel sweeps `A` once, eight blocks of 512 rows. It keeps a copy of the rows seen so far, and a wide operand
  `[H | x]` whose left half `H` collects the first hop `A x` one block late. At block `n` one product of the block with the
  wide operand gives, in its right half, rows `512 n …` of `A x`, and in its left half those rows of `A` against the part
  of `A x` known so far, which replaces rows `512 n …` of the output; every later block adds to every row the term of one
  more block of columns, read from the copy. Rows of the output not yet replaced, and the buffers before the first
  block, hold whatever they held: nothing below depends on them, since each row is replaced before anything of it is
  kept. After the last block every row has the terms of all 4096 columns, each once.

  On the extended reals the format changes are the identity and every product is the plain sum over the contracted
  axis, so both programs compute `∑ k, A r k * ∑ j, A k j * x j f`. The kernel's grouping of that sum by blocks of
  columns is a regrouping of a finite sum, and the left half's not-yet-known rows are zeros, whose terms vanish: both
  hold on the extended reals with no finiteness, so the precondition is not used.

  The frames run the printed body at each of its three control cases (first block, middle blocks, last block) by
  symbolic execution; the value claim carries the invariant above through the eight blocks. The reference's run and
  the facts are the generated modules'.
-/
import proofs.«107282_g65807488909795_cont_9to1_m_465_25_alg».proof.Defs
import proofs.«107282_g65807488909795_cont_9to1_m_465_25_alg».proof.Proof.Gen.Kernel
import proofs.«107282_g65807488909795_cont_9to1_m_465_25_alg».proof.Proof.Gen.KernelIdeal
import proofs.«107282_g65807488909795_cont_9to1_m_465_25_alg».proof.Proof.Gen.ReferenceIdeal
import proofs.«107282_g65807488909795_cont_9to1_m_465_25_alg».proof.Proof.Gen.ReferenceIdeal.Run
import proofs.«107282_g65807488909795_cont_9to1_m_465_25_alg».proof.Proof.Gen.Pre_finite_inputs
import proofs.«107282_g65807488909795_cont_9to1_m_465_25_alg».proof.Proof.KFrameRun
import proofs.«107282_g65807488909795_cont_9to1_m_465_25_alg».proof.Proof.FrameRun
import proofs.«107282_g65807488909795_cont_9to1_m_465_25_alg».proof.Proof.ValueRun
import proofs.«107282_g65807488909795_cont_9to1_m_465_25_alg».proof.Proof.RefValue

noncomputable section

namespace Cert.Proof

open Idealize.ShloMosaic Idealize.ShloMosaic.ValueIdx Idealize.SL.Sem

theorem frame_k : Cert.frame_Kernel := fun m ρ _ => Cert.Kernel.Body.frame_claim m ρ

theorem frame_ki : Cert.frame_KernelIdeal := fun m ρ _ => Cert.KernelIdeal.Body.frame_claim m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `∑ k, A r k * ∑ j, A k j * x j f` at entry (r, f). -/
theorem algebraic : Cert.algebraic_KernelIdeal_ReferenceIdeal := by
  intro m ρ m' ρ' _ hagree
  refine ⟨fun c => Cert.KernelIdeal.Body.Gout m c, Cert.KernelIdeal.Body.run_out m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine funext fun (y : Cert.ReferenceIdeal.S4096x64.Idx) => ?_
  obtain ⟨r, f, rfl⟩ : ∃ (r : Fin 4096) (f : Fin 64), y = ix2 r f := ⟨y 0, y 1, eq_ix2 y⟩
  show _ = Cert.KernelIdeal.Body.Gout m c (ix2 r f)
  rw [Cert.KernelIdeal.Body.Gout_apply m c _ _ rfl rfl]
  exact Cert.ReferenceIdeal.RefValue.two_dots _ _ r f

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
